-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x256x256 : Shape := ⟨4, ![256, 3, 256, 256]⟩
abbrev S256x512 : Shape := ⟨2, ![256, 512]⟩
abbrev S_ : Shape := ⟨0, ![]⟩

class Facts : Prop where
  bcast_S_S256x3x256x256 : S_.BroadcastsInDim S256x3x256x256 (![] : Fin 0 → Fin S256x3x256x256.rank)
  reducesTo_S256x3x256x256_S_d0_1_2_3 : S256x3x256x256.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S256x3x256x256 .f32) (main_arg1 : FVec F S256x3x256x256 .f32) (main_arg2 : FVec F S256x512 .f32) (main_arg3 : FVec F S256x512 .f32) : IVec S_ 1 :=
  let main_v0 : FVec F S256x3x256x256 .f32 := Host.absf main_arg0
  let main_cst : FVec F S_ .f32 := constant S_ .f32 0x7F800000#32
  let main_v1 : FVec F S256x3x256x256 .f32 := broadcastInDim S256x3x256x256 ![] bcast_S_S256x3x256x256 main_cst
  let main_v2 : IVec S256x3x256x256 1 := cmpf .olt main_v0 main_v1
  let main_c : IVec S_ 1 := constantI S_ 1 1#1
  let main_v3 : IVec S_ 1 := (fun x v => Host.reduce IntOp.andi x v reducesTo_S256x3x256x256_S_d0_1_2_3 h_S_) main_v2 main_c
  let main_v4 : FVec F S256x3x256x256 .f32 := Host.absf main_arg1
  let main_cst_0 : FVec F S_ .f32 := constant S_ .f32 0x7F800000#32
  let main_v5 : FVec F S256x3x256x256 .f32 := broadcastInDim S256x3x256x256 ![] bcast_S_S256x3x256x256 main_cst_0
  let main_v6 : IVec S256x3x256x256 1 := cmpf .olt main_v4 main_v5
  let main_c_1 : IVec S_ 1 := constantI S_ 1 1#1
  let main_v7 : IVec S_ 1 := (fun x v => Host.reduce IntOp.andi x v reducesTo_S256x3x256x256_S_d0_1_2_3 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S256x3x256x256 : Shape := ⟨4, ![256, 3, 256, 256]⟩
abbrev S256x512 : Shape := ⟨2, ![256, 512]⟩
abbrev S256x196608 : Shape := ⟨2, ![256, 196608]⟩
abbrev S256 : Shape := ⟨1, ![256]⟩
abbrev S256x4096 : Shape := ⟨2, ![256, 4096]⟩
abbrev S256x1 : Shape := ⟨2, ![256, 1]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S256x3x256x256, .f32⟩
  | .hbm, ⟨1, _⟩ => ⟨S256x3x256x256, .f32⟩
  | .hbm, ⟨2, _⟩ => ⟨S256x512, .f32⟩
  | .hbm, ⟨3, _⟩ => ⟨S256x512, .f32⟩
  | .hbm, ⟨4, _⟩ => ⟨S256x196608, .f32⟩
  | .hbm, ⟨5, _⟩ => ⟨S256x196608, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256, .f32⟩
  | .local _ .vmem, ⟨5, _⟩ => ⟨S256x1, .f32⟩
  | .local _ .vmem, ⟨6, _⟩ => ⟨S256x512, .f32⟩
  | .local _ .vmem, ⟨7, _⟩ => ⟨S256x512, .f32⟩
  | .local _ .vmem, ⟨8, _⟩ => ⟨S256, .f32⟩
  | _, _ => ⟨S256x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v29 : BitVec 1 := Scalar.cmpi .eq arg0 c47_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S256x3x256x256_S256x196608 : S256x3x256x256.ShapeCasts S256x196608
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  inb_S256x512_S256x512_0_0 : ∀ a, (![0, 0] : Fin 2 → Nat) a + S256x512.size a ≤ S256x512.size a
  h_S256x512 : 0 < S256x512.numel
  reduces_S256x512_S256 : S256x512.Reduces [1] S256
  bcast_S_S256 : S_.BroadcastsInDim S256 (![] : Fin 0 → Fin S256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x196608.size a
  hwx0_0 : ∀ i : grid0.Coords, EltTy.bits .f32 = 32 ∨ (Rect.block (s := S256x196608) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x196608.size a
  hwx0_1 : ∀ i : grid0.Coords, EltTy.bits .f32 = 32 ∨ (Rect.block (s := S256x196608) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S256x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x3x256x256 : Shape := ⟨4, ![256, 3, 256, 256]⟩
abbrev S256x512 : Shape := ⟨2, ![256, 512]⟩
abbrev S_ : Shape := ⟨0, ![]⟩
abbrev S256 : Shape := ⟨1, ![256]⟩

abbrev nBuf : Space → Nat
  | .hbm => 53
  | .vmem => 0
  | .smem => 0
  | _ => 0

abbrev bufTy : (tb : Table) → Fin (tcTables nBuf tb) → BufTy
  | .hbm, ⟨0, _⟩ => ⟨S256x3x256x256, .f32⟩
  | .hbm, ⟨1, _⟩ => ⟨S256x3x256x256, .f32⟩
  | .hbm, ⟨2, _⟩ => ⟨S256x512, .f32⟩
  | .hbm, ⟨3, _⟩ => ⟨S256x512, .f32⟩
  | .hbm, ⟨4, _⟩ => ⟨S256x3x256x256, .f32⟩
  | .hbm, ⟨5, _⟩ => ⟨S_, .f32⟩
  | .hbm, ⟨6, _⟩ => ⟨S256x3x256x256, .f32⟩
  | .hbm, ⟨7, _⟩ => ⟨S256x3x256x256, .f32⟩
  | .hbm, ⟨8, _⟩ => ⟨S256x3x256x256, .f32⟩
  | .hbm, ⟨9, _⟩ => ⟨S256x3x256x256, .f32⟩
  | .hbm, ⟨10, _⟩ => ⟨S_, .f32⟩
  | .hbm, ⟨11, _⟩ => ⟨S256x3x256x256, .f32⟩
  | .hbm, ⟨12, _⟩ => ⟨S256x3x256x256, .f32⟩
  | .hbm, ⟨13, _⟩ => ⟨S256x3x256x256, .f32⟩
  | .hbm, ⟨14, _⟩ => ⟨S_, .f32⟩
  | .hbm, ⟨15, _⟩ => ⟨S256x3x256x256, .f32⟩
  | .hbm, ⟨16, _⟩ => ⟨S256x3x256x256, .f32⟩
  | .hbm, ⟨17, _⟩ => ⟨S256x3x256x256, .f32⟩
  | .hbm, ⟨18, _⟩ => ⟨S256x3x256x256, .f32⟩
  | .hbm, ⟨19, _⟩ => ⟨S256x3x256x256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256x512, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | _, _ => ⟨S256x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S256x3x256x256 : S_.BroadcastsInDim S256x3x256x256 (![] : Fin 0 → Fin S256x3x256x256.rank)
  reducesTo_S256x3x256x256_S256_d1_2_3 : S256x3x256x256.ReducesTo [1, 2, 3] S256
  h_S_ : 0 < S_.numel
  bcast_S_S256 : S_.BroadcastsInDim S256 (![] : Fin 0 → Fin S256.rank)
  bcast_S_S256x512 : S_.BroadcastsInDim S256x512 (![] : Fin 0 → Fin S256x512.rank)
  reducesTo_S256x512_S256_d1 : S256x512.ReducesTo [1] S256

variable [Facts₀]

class Facts : Prop extends Facts₀ where

variable [Facts]
-- ==== Proof.BodiesK.lean ====
/-
  The two kernel bodies as triples over whole buffers, at any float instance.

  The reconstruction body keeps per-row totals in a scratch column across the 48 chunks of a row: it stores zeros
  into it at the first chunk, adds each chunk's row sums, and at the last chunk writes totals / row length into the
  result buffer.  The divergence body has one point and one store.  Each triple names what every buffer holds
  afterwards as the body's own payload term of what it held before.
-/
import proofs.«134086_j33320356283101_1_alg».proof.Proof.Gen.Kernel.Launch
import proofs.«134086_j33320356283101_1_alg».proof.Proof.Gen.Kernel.Skeleton
import proofs.«134086_j33320356283101_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The bodies' accesses

Both kernels load and store their buffers whole: through the rectangle at offset zero of the buffer's own extents. -/

abbrev rb : Rect S256x4096 := Rect.unit (s := S256x4096) ![0, 0] S256x4096.size inb_S256x4096_S256x4096_0_0
abbrev rs : Rect S256x1 := Rect.unit (s := S256x1) ![0, 0] S256x1.size inb_S256x1_S256x1_0_0
abbrev ro : Rect S256 := Rect.unit (s := S256) ![0] S256.size inb_S256_S256_0
abbrev rk : Rect S256x512 := Rect.unit (s := S256x512) ![0, 0] S256x512.size inb_S256x512_S256x512_0_0

theorem hz2 : (![0, 0] : Fin 2 → ℕ) = fun _ => 0 := by funext a; fin_cases a <;> rfl
theorem hz1 : (![0] : Fin 1 → ℕ) = fun _ => 0 := by funext a; fin_cases a; rfl

/-- A store of the whole scratch column, last, covers it, whatever was stored before. -/
theorem cover_s (w : Vec F S256x1 .f32) (L : List (View.Piece (Elt F) S256x1 .f32)) (y : S256x1.Idx) :
    ∃ pc ∈ ((⟨rs, w⟩ : View.Piece (Elt F) S256x1 .f32) :: L), y ∈ pc.1.set :=
  ⟨⟨rs, w⟩, List.mem_cons_self, View.mem_set_unit_zero hz2 inb_S256x1_S256x1_0_0 y⟩
/-- A store of the whole result vector, last, covers it. -/
theorem cover_o (w : Vec F S256 .f32) (L : List (View.Piece (Elt F) S256 .f32)) (y : S256.Idx) :
    ∃ pc ∈ ((⟨ro, w⟩ : View.Piece (Elt F) S256 .f32) :: L), y ∈ pc.1.set :=
  ⟨⟨ro, w⟩, List.mem_cons_self, View.mem_set_unit_zero hz1 inb_S256_S256_0 y⟩

/-- The reconstruction body's first branch is taken exactly when the chunk number is 0 (its scalar chain, as printed), -/
abbrev condFirst (i : grid0.Coords) : Prop := (Scalar.cmpi .ne (Scalar.extui (Scalar.cmpi .eq (BitVec.ofNat 32 (i 0).val) 0#32)) 0#32) = 1#1
/-- its second exactly when it is the last chunk. -/
abbrev condLast (i : grid0.Coords) : Prop := k0_cond2 i = 1#1

/-! ## The reconstruction body, case by case

On whole buffers: the two chunks `x0`, `x1` are read and left as they were; the row totals `arg4` end at the
chunk's row sums added to what they held — to the zeros just stored at the first chunk —; the result buffer `arg3`
is left untouched except at the last chunk, where it ends at the totals divided by the row length. -/

set_option maxHeartbeats 1000000 in
/-- The first chunk: the totals are zeroed, then the chunk's row sums added. -/
theorem bce_first (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : condFirst i) (hc1 : ¬ condLast i)
    (x0 x1 : Vec F S256x4096 .f32) (xi : Vec F S256 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 (k0_pay1 (F := F)))) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%f3, %hf3, H3⟩, ⟨%ds0, %fs0, -, HS0⟩, Hk⟩
  obtain rfl := harg1.eq_unread hf0; obtain rfl := harg2.eq_unread hf1; obtain rfl := harg3.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; · ipureintro; exact harg3.read_unread _
    iexact H3
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, View.ld_unit_zero (S := S256x4096) hz2]
  exact congrArg (k0_pay2 x0 x1) (View.readCov_unit_zero arg4.view hz2 _ _)

set_option maxHeartbeats 1000000 in
/-- A chunk between the first and the last: its row sums are added to the totals `xs`. -/
theorem bce_mid (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : ¬ condFirst i) (hc1 : ¬ condLast i)
    (x0 x1 : Vec F S256x4096 .f32) (xi : Vec F S256 .f32) (xs : Vec F S256x1 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 xs)) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%f3, %hf3, H3⟩, ⟨%fs0, %hfs0, HS0⟩, Hk⟩
  obtain rfl := harg1.eq_unread hf0; obtain rfl := harg2.eq_unread hf1; obtain rfl := harg3.eq_unread hf3
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; · ipureintro; exact harg3.read_unread _
    iexact H3
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, harg4.read_unread, View.ld_unit_zero (S := S256x4096) hz2,
    View.ld_unit_zero (S := S256x1) hz2]

set_option maxHeartbeats 1000000 in
/-- The last chunk: its row sums are added to the totals `xs`, and the result buffer takes the new totals divided by
    the row length. -/
theorem bce_last (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : ¬ condFirst i) (hc1 : condLast i)
    (x0 x1 : Vec F S256x4096 .f32) (xs : Vec F S256x1 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay3 (k0_pay2 x0 x1 xs))
            ∗ owns (c : Thread nD τ) arg4 fullShare (k0_pay2 x0 x1 xs)) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%d3, %f3, -, H3⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_o _ _),
      View.canon_cons_unit_zero hz1]
    simp only [View.readAt_eq_ld, harg1.read_unread, harg2.read_unread, harg4.read_unread, View.ld_unit_zero (S := S256x4096) hz2,
      View.ld_unit_zero (S := S256x1) hz2]
    exact congrArg k0_pay3 (View.readCov_unit_zero arg4.view hz2 _ _)
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, harg4.read_unread, View.ld_unit_zero (S := S256x4096) hz2,
    View.ld_unit_zero (S := S256x1) hz2]

/-! ## The divergence body

One point: the mean `x0` and the scale `x1` are read whole and left as they were; the result buffer ends at the
body's one payload of the two. -/

set_option maxHeartbeats 1000000 in
theorem kl_body (c : Dev nD) (E : Set ℕ) (i : grid1.Coords) (arg1 : Memref sig .tc .vmem S256x512 .f32) (harg1 : arg1.IsWhole) (arg2 : Memref sig .tc .vmem S256x512 .f32) (harg2 : arg2.IsWhole) (arg3 : Memref sig .tc .vmem S256 .f32) (harg3 : arg3.IsWhole)
    (x0 x1 : Vec F S256x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__kl_kernel i arg1 harg1 arg2 harg2 arg3 harg3) K := by
  simp only [cc1__kl_kernel_eq_skeleton]; unfold cc1__kl_kernel_skel
  unfold owns
  iintro ⟨⟨%f0, %hf0, H0⟩, ⟨%f1, %hf1, H1⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H3
  ipureintro
  sl_unfold_words
  rw [View.read_writes_eq_canon _ _ _ (cover_o _ _),
    View.canon_cons_unit_zero hz1]
  simp only [View.readAt_eq_ld, harg1.read_unread, harg2.read_unread, View.ld_unit_zero (S := S256x512) hz2]

end Cert.Kernel.Hand

end
-- ==== Proof.SpecK.lean ====
/-
  The quantities the two sides of this certificate are compared through.

  The reconstruction kernel walks the 196608 columns of a [256, 196608] array in 48 chunks of 4096 columns and keeps,
  per row, a running total in a [256, 1] scratch: chunk 0 is added to the zeros stored just before it, every later
  chunk to the total the chunk before left.  `accAt b0 b1 n` is that total after chunk `n`, written over the
  kernel body's own payload terms (the generated skeleton's `k0_pay1`, `k0_pay2`), for any two families of
  chunks.  After the last chunk the row totals are divided by the row length (`k0_pay3`).
-/
import proofs.«134086_j33320356283101_1_alg».proof.Proof.Gen.Kernel.Skeleton

noncomputable section

namespace Cert.Kernel.Spec

open Idealize.ShloMosaic Cert.Kernel Cert.Kernel.Gen

variable {F : FTy → Type} [FloatOps F] [Cert.Kernel.Facts]

/-- The per-row running total after chunk `n`: chunk 0 on top of the stored zeros, chunk `n + 1` on top of the
    total after chunk `n`. -/
def accAt (b0 b1 : ℕ → Vec F S256x4096 .f32) : ℕ → Vec F S256x1 .f32
  | 0 => k0_pay2 (b0 0) (b1 0) (k0_pay1 (F := F))
  | n + 1 => k0_pay2 (b0 (n + 1)) (b1 (n + 1)) (accAt b0 b1 n)

theorem accAt_zero (b0 b1 : ℕ → Vec F S256x4096 .f32) :
    accAt b0 b1 0 = k0_pay2 (b0 0) (b1 0) (k0_pay1 (F := F)) := rfl

theorem accAt_succ (b0 b1 : ℕ → Vec F S256x4096 .f32) (n : ℕ) :
    accAt b0 b1 (n + 1) = k0_pay2 (b0 (n + 1)) (b1 (n + 1)) (accAt b0 b1 n) := rfl

end Cert.Kernel.Spec

end
-- ==== Proof.RegionsK.lean ====
/-
  The two kernel regions' proof data and body obligations, at any float instance.

  Region 0 walks a row's 48 chunks keeping per-row totals in a scratch column between points: its invariant before
  point n + 1 holds that column at the totals after chunk n (`acc`), its result window is idle until the last point,
  where the body writes totals / row length.  Region 1 is one point: the result is the body's one payload of its two
  operands.  What each buffer holds is stated over the bodies' payload terms; nothing is evaluated here.
-/
import proofs.«134086_j33320356283101_1_alg».proof.Proof.Gen.Kernel.Launch
import proofs.«134086_j33320356283101_1_alg».proof.Proof.Gen.Kernel.Skeleton
import proofs.«134086_j33320356283101_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import proofs.«134086_j33320356283101_1_alg».proof.Proof.BodiesK
import proofs.«134086_j33320356283101_1_alg».proof.Proof.SpecK
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The two regions, at a parameter `V`: the unscoped buffers' contents when the region is entered -/

section Regions

variable (V : (c : Dev nD) → (b : Ref sig .tc) → Buf (Elt F) ((c : Thread nD τ).loc b))

/-! ## Region 0 (the reconstruction term): chunks, running totals, the invariant -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem N0_pos : 0 < cfg0.N := by rw [show cfg0.N = 48 from N_0]; decide

/-- Chunk `n` of the first (second) operand, for every natural `n` (beyond the grid: chunk 0, never consulted). -/
def chunk0 (c : Dev nD) (n : ℕ) : Vec F S256x4096 .f32 :=
  if h : n < cfg0.N then iblk0 V c 0 ⟨n, h⟩ else iblk0 V c 0 ⟨0, N0_pos⟩
def chunk1 (c : Dev nD) (n : ℕ) : Vec F S256x4096 .f32 :=
  if h : n < cfg0.N then iblk0 V c 1 ⟨n, h⟩ else iblk0 V c 1 ⟨0, N0_pos⟩

theorem chunk0_at (c : Dev nD) (t : Fin cfg0.N) : chunk0 V c t.val = iblk0 V c 0 t := by
  unfold chunk0; rw [dif_pos t.isLt]
theorem chunk1_at (c : Dev nD) (t : Fin cfg0.N) : chunk1 V c t.val = iblk0 V c 1 t := by
  unfold chunk1; rw [dif_pos t.isLt]

/-- The per-row totals the scratch column holds after point `n`. -/
def acc (c : Dev nD) (n : ℕ) : Vec F S256x1 .f32 := Cert.Kernel.Spec.accAt (chunk0 V c) (chunk1 V c) n

theorem acc_first (c : Dev nD) (t : Fin cfg0.N) (h : t.val = 0) :
    acc V c t.val = k0_pay2 (iblk0 V c 0 t) (iblk0 V c 1 t) (k0_pay1 (F := F)) := by
  rw [← chunk0_at V c t, ← chunk1_at V c t, h]; rfl
theorem acc_later (c : Dev nD) (t : Fin cfg0.N) (h : t.val ≠ 0) :
    acc V c t.val = k0_pay2 (iblk0 V c 0 t) (iblk0 V c 1 t) (acc V c (t.val - 1)) := by
  rw [← chunk0_at V c t, ← chunk1_at V c t]
  obtain ⟨n, hn⟩ : ∃ n, t.val = n + 1 := ⟨t.val - 1, by omega⟩
  rw [hn]; rfl

/-- The scratch column, as the body is passed it. -/
abbrev scM : Memref sig .tc .vmem S256x1 .f32 := Memref.whole cc0_scratch0

/-- The core's other scoped buffers that are no staging buffer of region 0 (the other region's staging buffers), at
    anything. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The class invariant of region 0 with the scratch column as a memref owned at some contents. -/
theorem PhiA0_eq (c : Dev nD) :
    (Pipeline.ΦA spec0 c : sProp 𝕄)
      = iprop(iprop((∃ d, owns (c : Thread nD τ) scM fullShare d) ∗ restS0 c) ∗ (∃ r, prngReg c r)) := by
  unfold Pipeline.ΦA restS0; rw [scopedRest0_eq]; simp only [scM, owns_whole]; try rfl

/-- The region's invariant before point `n`: before the first point the class's (the scratch at anything); afterwards
    the scratch column at the totals the point before left, the other scoped buffers at anything, the generator
    register at some state. -/
def PhiS (c : Dev nD) : ℕ → sProp 𝕄
  | 0 => Pipeline.ΦA spec0 c
  | n + 1 => iprop(iprop(owns (c : Thread nD τ) scM fullShare (acc V c n) ∗ restS0 c) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop(iprop(owns (c : Thread nD τ) scM fullShare (acc V c n) ∗ restS0 c) ∗ (∃ r, prngReg c r)) := rfl
theorem PhiS_pos (c : Dev nD) (n : ℕ) (hz : n ≠ 0) :
    PhiS V c n = iprop(iprop(owns (c : Thread nD τ) scM fullShare (acc V c (n - 1)) ∗ restS0 c) ∗ (∃ r, prngReg c r)) := by
  cases n with
  | zero => exact absurd rfl hz
  | succ n => rfl

/-- The proof data of region 0 on core `c`: the arrays as the region finds them; after the body each chunk's buffer at
    the chunk, the result buffer (consulted at the last point only: the window is idle before it) at the totals divided
    by the row length; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc V c t.val)
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc V c t.val) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem PhiS_castSucc (c : Dev nD) (t : Fin cfg0.N) : (dat0 V c).Φ t.castSucc = PhiS V c t.val := by
  dsimp only [dat0]; simp only [Fin.coe_castSucc]

/-! ## Where the branches are taken, where the result window is idle — decided over the 48 points -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 47 :=
  (by decide +kernel : ∀ t : Fin grid0.N, condLast (grid0.coords t) ↔ t.val = 47)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ condLast (grid0.coords t) → cfg0.idle 2 (grid0.coords t) = true := by decide +kernel
theorem noFlush0_2 : ∀ t : Fin cfg0.N, ¬ condLast (grid0.coords t) → (cfg0.win 2).flush t = false := by decide +kernel
theorem liveAt0_2 : ∀ t : Fin cfg0.N, condLast (grid0.coords t) → cfg0.idle 2 (grid0.coords t) = false := by decide +kernel

/-- Each window's current staging memref at point `t`, spelt as the pipeline passes it. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)

/-! ## The body obligation of region 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the chunks' memrefs hold their blocks; the point is the first, the last, or one between
    (the closed forms of the two branch conditions), and that case's triple applies; the invariant hands the body the
    scratch column at the totals the point before left (at anything at the first point) and takes it back at this
    point's totals; the result window is handed back as found except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 48 := lt_of_lt_of_eq t.isLt (show cfg0.N = 48 from N_0)
  by_cases hl : t.val = 47
  · have h0 : ¬ condFirst (grid0.coords t) := fun h => by have := (hcondFirst t).mp h; omega
    have h1 : condLast (grid0.coords t) := (hcondLast t).mpr hl
    rw [show (dat0 V c).leavesExact 2 t = owns (c : Thread nD τ) (ms0_2 t) fullShare ((dat0 V c).after 2 t) from by
      unfold Dat.leavesExact; rw [liveAt0_2 t h1], after0_2]
    rw [PhiS_castSucc V c t, PhiS_pos V c _ (by omega), acc_later V c t (by omega)]
    iintro ⟨⟨⟨HS0, HR⟩, Hg⟩, Ho, ⟨%d0, H0⟩, ⟨%d1, H1⟩, ⟨%d2, H2⟩⟩
    iapply (bce_last c Set.univ (grid0.coords t) (ms0_0 t) (hs0_0 t) (ms0_1 t) (hs0_1 t) (ms0_2 t) (hs0_2 t) scM (Memref.isWhole_whole _) h0 h1 (iblk0 V c 0 t) (iblk0 V c 1 t) (acc V c (t.val - 1)) _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · have h1 : ¬ condLast (grid0.coords t) := fun h => hl ((hcondLast t).mp h)
    rw [Dat.leavesExact_idle (dat0 V c) 2 t (idleAt0_2 t h1) (noFlush0_2 t h1)]
    by_cases hz : t.val = 0
    · have h0 : condFirst (grid0.coords t) := (hcondFirst t).mpr hz
      rw [PhiS_castSucc V c t, PhiS_zero V c _ hz, PhiA0_eq, acc_first V c t hz]
      iintro ⟨⟨⟨HS0, HR⟩, Hg⟩, Ho, ⟨%d0, H0⟩, ⟨%d1, H1⟩, ⟨%d2, H2⟩⟩
      iapply (bce_first c Set.univ (grid0.coords t) (ms0_0 t) (hs0_0 t) (ms0_1 t) (hs0_1 t) (ms0_2 t) (hs0_2 t) scM (Memref.isWhole_whole _) h0 h1 (iblk0 V c 0 t) (iblk0 V c 1 t) ((dat0 V c).before 2 t d2) _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
    · have h0 : ¬ condFirst (grid0.coords t) := fun h => hz ((hcondFirst t).mp h)
      rw [PhiS_castSucc V c t, PhiS_pos V c _ hz, acc_later V c t hz]
      iintro ⟨⟨⟨HS0, HR⟩, Hg⟩, Ho, ⟨%d0, H0⟩, ⟨%d1, H1⟩, ⟨%d2, H2⟩⟩
      iapply (bce_mid c Set.univ (grid0.coords t) (ms0_0 t) (hs0_0 t) (ms0_1 t) (hs0_1 t) (ms0_2 t) (hs0_2 t) scM (Memref.isWhole_whole _) h0 h1 (iblk0 V c 0 t) (iblk0 V c 1 t) ((dat0 V c).before 2 t d2) (acc V c (t.val - 1)) _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point; -/
theorem hin0 (c : Dev nD) : Pipeline.ΦA spec0 c ⊢ (dat0 V c).Φ 0 := by
  rw [show (dat0 V c).Φ 0 = PhiS V c 0 from rfl, PhiS_zero V c 0 rfl]
/-- after the last point it gives the class invariant back, the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 48 := N_0; omega), PhiA0_eq]
  iintro ⟨⟨HS0, HR⟩, Hg⟩
  isplitl [HS0 HR]
  · isplitl [HS0]; · iexists _; iexact HS0
    iexact HR
  iexact Hg

/-! ## Region 1 (the divergence term): one point, no scratch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1: the arrays as found; the two operands' buffers left at their blocks, the result buffer
    at the body's payload of them; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (kl_body c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.RunK.lean ====
/-
  The run of the kernel's program, at any float instance: @main is two reshapes, the reconstruction region, the
  divergence region, and seven host operations combining the two results.  Each region is entered from the unscoped
  buffers at a named valuation and left at that valuation with the region's arrays replaced by what its write-backs
  leave; the launch composes the four segments and reads every unscoped buffer off the last valuation.
-/
import proofs.«134086_j33320356283101_1_alg».proof.Proof.Gen.Kernel.Launch
import proofs.«134086_j33320356283101_1_alg».proof.Proof.Gen.Kernel.Skeleton
import proofs.«134086_j33320356283101_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import proofs.«134086_j33320356283101_1_alg».proof.Proof.RegionsK
import proofs.«134086_j33320356283101_1_alg».proof.Proof.Gen.Kernel.Regions
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at each boundary of @main -/

/-- At launch. -/
abbrev Q0 : Dev nD → Valuation τ sig (Elt F) := fun c b => m (c, b)
/-- After the two reshapes (region 0's entry). -/
abbrev Q1 : Dev nD → Valuation τ sig (Elt F) := fun c => StableHlo.after hostOps0 (Q0 m c)
/-- The same read at the TensorCore's references. -/
abbrev R1 : (c : Dev nD) → (b : Ref sig .tc) → Buf (Elt F) ((c : Thread nD τ).loc b) := fun c b => Q1 m c b
/-- At region 0's exit: its arrays at what its write-backs leave, every other buffer as entered. -/
def Q2 (c : Dev nD) : Valuation τ sig (Elt F) :=
  Pipeline.withArrays spec0 c (Q1 m c) fun w => (dat0 (R1 m) c).arrAt w cfg0.N
theorem Q2_arr (c : Dev nD) (w : Fin cfg0.W) :
    Q2 m c (Proc.devRef .tc (Pipeline.arrRef spec0 w)) = (dat0 (R1 m) c).arrAt w cfg0.N := by
  unfold Q2; exact Pipeline.withArrays_arr spec0 launch0.win.arr_inj c _ _ w
theorem Q2_of_ne (c : Dev nD) (b : Ref sig .tc) (hb : ∀ w, Pipeline.arrRef spec0 w ≠ b) :
    Q2 m c (Proc.devRef .tc b) = Q1 m c (Proc.devRef .tc b) := by
  unfold Q2; exact Pipeline.withArrays_of_ne spec0 c _ _ b hb
abbrev R2 : (c : Dev nD) → (b : Ref sig .tc) → Buf (Elt F) ((c : Thread nD τ).loc b) := fun c b => Q2 m c b
theorem hF0 (c : Dev nD) (w : Fin cfg0.W) : (dat0 (R1 m) c).arrAt w cfg0.N = R2 m c (Pipeline.arrRef spec0 w) :=
  (Q2_arr m c w).symm
theorem hrest0 (c : Dev nD) : ∀ b, b ∉ Finset.univ.image (Pipeline.arrRef spec0) → R2 m c b = R1 m c b :=
  fun b hb => Q2_of_ne m c b fun w e => hb (Finset.mem_image.mpr ⟨w, Finset.mem_univ _, e⟩)
/-- At region 1's exit (no host operation stands between the two regions: region 1 is entered from `Q2`). -/
def Q3 (c : Dev nD) : Valuation τ sig (Elt F) :=
  Pipeline.withArrays spec1 c (Q2 m c) fun w => (dat1 (R2 m) c).arrAt w cfg1.N
theorem Q3_arr (c : Dev nD) (w : Fin cfg1.W) :
    Q3 m c (Proc.devRef .tc (Pipeline.arrRef spec1 w)) = (dat1 (R2 m) c).arrAt w cfg1.N := by
  unfold Q3; exact Pipeline.withArrays_arr spec1 launch1.win.arr_inj c _ _ w
theorem Q3_of_ne (c : Dev nD) (b : Ref sig .tc) (hb : ∀ w, Pipeline.arrRef spec1 w ≠ b) :
    Q3 m c (Proc.devRef .tc b) = Q2 m c (Proc.devRef .tc b) := by
  unfold Q3; exact Pipeline.withArrays_of_ne spec1 c _ _ b hb
abbrev R3 : (c : Dev nD) → (b : Ref sig .tc) → Buf (Elt F) ((c : Thread nD τ).loc b) := fun c b => Q3 m c b
theorem hF1 (c : Dev nD) (w : Fin cfg1.W) : (dat1 (R2 m) c).arrAt w cfg1.N = R3 m c (Pipeline.arrRef spec1 w) :=
  (Q3_arr m c w).symm
theorem hrest1 (c : Dev nD) : ∀ b, b ∉ Finset.univ.image (Pipeline.arrRef spec1) → R3 m c b = R2 m c b :=
  fun b hb => Q3_of_ne m c b fun w e => hb (Finset.mem_image.mpr ⟨w, Finset.mem_univ _, e⟩)
/-- After the seven host operations that combine the two results. -/
abbrev Q4 : Dev nD → Valuation τ sig (Elt F) := fun c => StableHlo.after hostOps2 (Q3 m c)

/-! ## The proof data family and what rides beside the buffers -/

/-- Both pipelines' proof data, each at its region's entry contents (a literal match on the pipeline). -/
def pdatsH : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers through every segment: the generator register at some state, nothing owed. -/
abbrev RH (c : Dev nD) : sProp 𝕄 := iprop((∃ r, prngReg c r) ∗ ∃ W, owes (c : Thread nD τ) (0 : CellTallies nD τ sig Unit) W)
/-- A stretch of host operations as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`: every unscoped buffer at `Q4`, the generator register at some state. -/
abbrev TH (c : Dev nD) : sProp 𝕄 := iprop(StableHlo.held (c : Thread nD τ) (Pipeline.ucRefs τ sig) (Q4 m c) ∗ ∃ r, prngReg c r)

/-! ## The regions as segments -/

set_option backward.isDefEq.respectTransparency.types false in
/-- Region 0 over the thread state: entered from every unscoped buffer at `Q1`, left at `Q2`; its arrays split out of
    the unscoped buffers and put back at the exit contents; the generator register into the invariant and out; the
    scratch column's totals, tracked point by point inside, forgotten at the exit; nothing owed. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ LH lvH 0 fun _ _ => rfl
  pre c := iprop(StableHlo.held (c : Thread nD τ) (Pipeline.ucRefs τ sig) (Q1 m c) ∗ RH c)
  post c := iprop(StableHlo.held (c : Thread nD τ) (Pipeline.ucRefs τ sig) (Q2 m c) ∗ RH c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (R1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (R1 m c) (R2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Q2`, left at `Q3`; the class invariant
    throughout; nothing owed. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ LH lvH 1 fun _ _ => rfl
  pre c := iprop(StableHlo.held (c : Thread nD τ) (Pipeline.ucRefs τ sig) (Q2 m c) ∗ RH c)
  post c := iprop(StableHlo.held (c : Thread nD τ) (Pipeline.ucRefs τ sig) (Q3 m c) ∗ RH c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (R2 m c) (R3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments: the reshapes, the two regions, the combining operations. -/
abbrev segsH : List (Pipeline.Seg (pcfgs (F := F)) adm (pdatsH m) () defs₀ 𝒱H LH lvH) :=
  [ .host (hsegH hostOps0 hostOps0_sub hostOps0_fresh (Q0 m)),
    .region (reg0 m),
    .region (reg1 m),
    .host (hsegH hostOps2 hostOps2_sub hostOps2_fresh (Q3 m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and every unscoped buffer ends at `Q4`: the launch memory pushed through the reshapes, the two regions'
    write-backs and the combining operations. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Q4 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Q0 m c) ∗ RH c)) (Tₙ := TH m)
    (hch := ⟨fun _ => .rfl, fun _ => .rfl, fun _ => .rfl, fun _ => .rfl, fun c => by
      show iprop(StableHlo.held (c : Thread nD τ) (Pipeline.ucRefs τ sig) (Q4 m c) ∗ RH c)
        ⊢ iprop(TH m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Q0 m c)
        from Pipeline.unscopedBufs_held c (Q0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q4 m c b)
    (hfin := fun c s' => by
      iintro ⟨⟨Hh, -⟩, HSI⟩
      unfold StableHlo.held
      imodintro
      iapply (pointsTo_read_all (Pipeline.ucRefs τ sig) (fun b => (((c : Thread nD τ)).1, b)) (Q4 m c) s')
      isplitl [Hh] <;> iassumption)
    (hQ := fun s h => h)

/-! ## The arguments end as launched -/

theorem Q1_of (c : Dev nD) (r : Ref sig .tc) (h : r ∉ hostOps0_W) : Q1 m c r = Q0 m c r :=
  StableHlo.after_of_writes_sub hostOps0 _ hostOps0_writes h
theorem Q4_of (c : Dev nD) (r : Ref sig .tc) (h : r ∉ hostOps2_W) : Q4 m c r = Q3 m c r :=
  StableHlo.after_of_writes_sub hostOps2 _ hostOps2_writes h

/-- No host operation writes `main_arg0` and no region has it as an array. -/
theorem Q4_arg0 (c : Dev nD) : Q4 m c main_arg0 = m ((c : Thread nD τ).loc main_arg0) :=
  (Q4_of m c main_arg0 (by decide)).trans <| (Q3_of_ne m c main_arg0 (by decide)).trans <|
    (Q2_of_ne m c main_arg0 (by decide)).trans <| (Q1_of m c main_arg0 (by decide)).trans rfl
theorem Q4_arg1 (c : Dev nD) : Q4 m c main_arg1 = m ((c : Thread nD τ).loc main_arg1) :=
  (Q4_of m c main_arg1 (by decide)).trans <| (Q3_of_ne m c main_arg1 (by decide)).trans <|
    (Q2_of_ne m c main_arg1 (by decide)).trans <| (Q1_of m c main_arg1 (by decide)).trans rfl
/-- The mean and the scale enter region 1 as launched, -/
theorem R2_arg2 (c : Dev nD) : R2 m c main_arg2 = m ((c : Thread nD τ).loc main_arg2) :=
  (Q2_of_ne m c main_arg2 (by decide)).trans <| (Q1_of m c main_arg2 (by decide)).trans rfl
theorem R2_arg3 (c : Dev nD) : R2 m c main_arg3 = m ((c : Thread nD τ).loc main_arg3) :=
  (Q2_of_ne m c main_arg3 (by decide)).trans <| (Q1_of m c main_arg3 (by decide)).trans rfl
/-- and, being inputs of region 1, leave it unchanged. -/
theorem Q4_arg2 (c : Dev nD) : Q4 m c main_arg2 = m ((c : Thread nD τ).loc main_arg2) :=
  (Q4_of m c main_arg2 (by decide)).trans <| (Q3_arr m c 0).trans <|
    (((dat1 (R2 m) c).arrAt_in 0 rfl _).trans (A_eq1 (R2 m) c 0)).trans (R2_arg2 m c)
theorem Q4_arg3 (c : Dev nD) : Q4 m c main_arg3 = m ((c : Thread nD τ).loc main_arg3) :=
  (Q4_of m c main_arg3 (by decide)).trans <| (Q3_arr m c 1).trans <|
    (((dat1 (R2 m) c).arrAt_in 1 rfl _).trans (A_eq1 (R2 m) c 1)).trans (R2_arg3 m c)

end Cert.Kernel.Hand

end
-- ==== Proof.BodiesI.lean ====
/-
  The two kernel bodies as triples over whole buffers, at any float instance.

  The reconstruction body keeps per-row totals in a scratch column across the 48 chunks of a row: it stores zeros
  into it at the first chunk, adds each chunk's row sums, and at the last chunk writes totals / row length into the
  result buffer.  The divergence body has one point and one store.  Each triple names what every buffer holds
  afterwards as the body's own payload term of what it held before.
-/
import proofs.«134086_j33320356283101_1_alg».proof.Proof.Gen.KernelIdeal.Launch
import proofs.«134086_j33320356283101_1_alg».proof.Proof.Gen.KernelIdeal.Skeleton
import proofs.«134086_j33320356283101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The bodies' accesses

Both kernels load and store their buffers whole: through the rectangle at offset zero of the buffer's own extents. -/

abbrev rb : Rect S256x4096 := Rect.unit (s := S256x4096) ![0, 0] S256x4096.size inb_S256x4096_S256x4096_0_0
abbrev rs : Rect S256x1 := Rect.unit (s := S256x1) ![0, 0] S256x1.size inb_S256x1_S256x1_0_0
abbrev ro : Rect S256 := Rect.unit (s := S256) ![0] S256.size inb_S256_S256_0
abbrev rk : Rect S256x512 := Rect.unit (s := S256x512) ![0, 0] S256x512.size inb_S256x512_S256x512_0_0

theorem hz2 : (![0, 0] : Fin 2 → ℕ) = fun _ => 0 := by funext a; fin_cases a <;> rfl
theorem hz1 : (![0] : Fin 1 → ℕ) = fun _ => 0 := by funext a; fin_cases a; rfl

/-- A store of the whole scratch column, last, covers it, whatever was stored before. -/
theorem cover_s (w : Vec F S256x1 .f32) (L : List (View.Piece (Elt F) S256x1 .f32)) (y : S256x1.Idx) :
    ∃ pc ∈ ((⟨rs, w⟩ : View.Piece (Elt F) S256x1 .f32) :: L), y ∈ pc.1.set :=
  ⟨⟨rs, w⟩, List.mem_cons_self, View.mem_set_unit_zero hz2 inb_S256x1_S256x1_0_0 y⟩
/-- A store of the whole result vector, last, covers it. -/
theorem cover_o (w : Vec F S256 .f32) (L : List (View.Piece (Elt F) S256 .f32)) (y : S256.Idx) :
    ∃ pc ∈ ((⟨ro, w⟩ : View.Piece (Elt F) S256 .f32) :: L), y ∈ pc.1.set :=
  ⟨⟨ro, w⟩, List.mem_cons_self, View.mem_set_unit_zero hz1 inb_S256_S256_0 y⟩

/-- The reconstruction body's first branch is taken exactly when the chunk number is 0 (its scalar chain, as printed), -/
abbrev condFirst (i : grid0.Coords) : Prop := (Scalar.cmpi .ne (Scalar.extui (Scalar.cmpi .eq (BitVec.ofNat 32 (i 0).val) 0#32)) 0#32) = 1#1
/-- its second exactly when it is the last chunk. -/
abbrev condLast (i : grid0.Coords) : Prop := k0_cond2 i = 1#1

/-! ## The reconstruction body, case by case

On whole buffers: the two chunks `x0`, `x1` are read and left as they were; the row totals `arg4` end at the
chunk's row sums added to what they held — to the zeros just stored at the first chunk —; the result buffer `arg3`
is left untouched except at the last chunk, where it ends at the totals divided by the row length. -/

set_option maxHeartbeats 1000000 in
/-- The first chunk: the totals are zeroed, then the chunk's row sums added. -/
theorem bce_first (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : condFirst i) (hc1 : ¬ condLast i)
    (x0 x1 : Vec F S256x4096 .f32) (xi : Vec F S256 .f32) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 (k0_pay1 (F := F)))) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%f3, %hf3, H3⟩, ⟨%ds0, %fs0, -, HS0⟩, Hk⟩
  obtain rfl := harg1.eq_unread hf0; obtain rfl := harg2.eq_unread hf1; obtain rfl := harg3.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; · ipureintro; exact harg3.read_unread _
    iexact H3
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, View.ld_unit_zero (S := S256x4096) hz2]
  exact congrArg (k0_pay2 x0 x1) (View.readCov_unit_zero arg4.view hz2 _ _)

set_option maxHeartbeats 1000000 in
/-- A chunk between the first and the last: its row sums are added to the totals `xs`. -/
theorem bce_mid (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : ¬ condFirst i) (hc1 : ¬ condLast i)
    (x0 x1 : Vec F S256x4096 .f32) (xi : Vec F S256 .f32) (xs : Vec F S256x1 .f32) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k0_pay2 x0 x1 xs)) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%f3, %hf3, H3⟩, ⟨%fs0, %hfs0, HS0⟩, Hk⟩
  obtain rfl := harg1.eq_unread hf0; obtain rfl := harg2.eq_unread hf1; obtain rfl := harg3.eq_unread hf3
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; · ipureintro; exact harg3.read_unread _
    iexact H3
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, harg4.read_unread, View.ld_unit_zero (S := S256x4096) hz2,
    View.ld_unit_zero (S := S256x1) hz2]

set_option maxHeartbeats 1000000 in
/-- The last chunk: its row sums are added to the totals `xs`, and the result buffer takes the new totals divided by
    the row length. -/
theorem bce_last (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256 .f32) (harg3 : arg3.IsWhole) (arg4 : Memref sig .tc .vmem S256x1 .f32) (harg4 : arg4.IsWhole)
    (hc0 : ¬ condFirst i) (hc1 : condLast i)
    (x0 x1 : Vec F S256x4096 .f32) (xs : Vec F S256x1 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay3 (k0_pay2 x0 x1 xs))
            ∗ owns (c : Thread nD τ) arg4 fullShare (k0_pay2 x0 x1 xs)) -∗ K ⟨⟩))
      ⊢ wp frame (wpE (defs₀ (F := F)) Variants.none c none) E (cc0__bce_kernel i arg1 harg1 arg2 harg2 arg3 harg3 arg4 harg4) K := by
  simp only [cc0__bce_kernel_eq_skeleton]; unfold cc0__bce_kernel_skel
  unfold owns
  iintro ⟨⟨%f0, %hf0, H0⟩, ⟨%f1, %hf1, H1⟩, ⟨%d3, %f3, -, H3⟩, ⟨%fs0, %hfs0, HS0⟩, Hk⟩
  obtain rfl := harg1.eq_unread hf0; obtain rfl := harg2.eq_unread hf1
  obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_o _ _),
      View.canon_cons_unit_zero hz1]
    simp only [View.readAt_eq_ld, harg1.read_unread, harg2.read_unread, harg4.read_unread, View.ld_unit_zero (S := S256x4096) hz2,
      View.ld_unit_zero (S := S256x1) hz2]
    exact congrArg k0_pay3 (View.readCov_unit_zero arg4.view hz2 _ _)
  iexists _; isplitr
  swap; · iexact HS0
  ipureintro
  sl_unfold_words
  rw [View.read_writes_eq_canon _ _ _ (cover_s _ _),
    View.canon_cons_unit_zero hz2]
  simp only [View.readAt_eq_ld, harg1.read_unread, harg2.read_unread, harg4.read_unread, View.ld_unit_zero (S := S256x4096) hz2,
    View.ld_unit_zero (S := S256x1) hz2]

/-! ## The divergence body

One point: the mean `x0` and the scale `x1` are read whole and left as they were; the result buffer ends at the
body's one payload of the two. -/

set_option maxHeartbeats 1000000 in
theorem kl_body (c : Dev nD) (E : Set ℕ) (i : grid1.Coords) (arg1 : Memref sig .tc .vmem S256x512 .f32) (harg1 : arg1.IsWhole) (arg2 : Memref sig .tc .vmem S256x512 .f32) (harg2 : arg2.IsWhole) (arg3 : Memref sig .tc .vmem S256 .f32) (harg3 : arg3.IsWhole)
    (x0 x1 : Vec F S256x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__kl_kernel i arg1 harg1 arg2 harg2 arg3 harg3) K := by
  simp only [cc1__kl_kernel_eq_skeleton]; unfold cc1__kl_kernel_skel
  unfold owns
  iintro ⟨⟨%f0, %hf0, H0⟩, ⟨%f1, %hf1, H1⟩, ⟨%d3, %f3, -, H3⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H3
  ipureintro
  sl_unfold_words
  rw [View.read_writes_eq_canon _ _ _ (cover_o _ _),
    View.canon_cons_unit_zero hz1]
  simp only [View.readAt_eq_ld, harg1.read_unread, harg2.read_unread, View.ld_unit_zero (S := S256x512) hz2]

end Cert.KernelIdeal.Hand

end
-- ==== Proof.Spec.lean ====
/-
  The quantities the two sides of this certificate are compared through.

  The reconstruction kernel walks the 196608 columns of a [256, 196608] array in 48 chunks of 4096 columns and keeps,
  per row, a running total in a [256, 1] scratch: chunk 0 is added to the zeros stored just before it, every later
  chunk to the total the chunk before left.  `accAt b0 b1 n` is that total after chunk `n`, written over the
  kernel body's own payload terms (the generated skeleton's `k0_pay1`, `k0_pay2`), for any two families of
  chunks.  After the last chunk the row totals are divided by the row length (`k0_pay3`).
-/
import proofs.«134086_j33320356283101_1_alg».proof.Proof.Gen.KernelIdeal.Skeleton

noncomputable section

namespace Cert.KernelIdeal.Spec

open Idealize.ShloMosaic Cert.KernelIdeal Cert.KernelIdeal.Gen

variable {F : FTy → Type} [FloatOps F] [Cert.KernelIdeal.Facts]

/-- The per-row running total after chunk `n`: chunk 0 on top of the stored zeros, chunk `n + 1` on top of the
    total after chunk `n`. -/
def accAt (b0 b1 : ℕ → Vec F S256x4096 .f32) : ℕ → Vec F S256x1 .f32
  | 0 => k0_pay2 (b0 0) (b1 0) (k0_pay1 (F := F))
  | n + 1 => k0_pay2 (b0 (n + 1)) (b1 (n + 1)) (accAt b0 b1 n)

theorem accAt_zero (b0 b1 : ℕ → Vec F S256x4096 .f32) :
    accAt b0 b1 0 = k0_pay2 (b0 0) (b1 0) (k0_pay1 (F := F)) := rfl

theorem accAt_succ (b0 b1 : ℕ → Vec F S256x4096 .f32) (n : ℕ) :
    accAt b0 b1 (n + 1) = k0_pay2 (b0 (n + 1)) (b1 (n + 1)) (accAt b0 b1 n) := rfl

end Cert.KernelIdeal.Spec

end
-- ==== Proof.RegionsI.lean ====
/-
  The two kernel regions' proof data and body obligations, at any float instance.

  Region 0 walks a row's 48 chunks keeping per-row totals in a scratch column between points: its invariant before
  point n + 1 holds that column at the totals after chunk n (`acc`), its result window is idle until the last point,
  where the body writes totals / row length.  Region 1 is one point: the result is the body's one payload of its two
  operands.  What each buffer holds is stated over the bodies' payload terms; nothing is evaluated here.
-/
import proofs.«134086_j33320356283101_1_alg».proof.Proof.Gen.KernelIdeal.Launch
import proofs.«134086_j33320356283101_1_alg».proof.Proof.Gen.KernelIdeal.Skeleton
import proofs.«134086_j33320356283101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import proofs.«134086_j33320356283101_1_alg».proof.Proof.BodiesI
import proofs.«134086_j33320356283101_1_alg».proof.Proof.Spec
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The two regions, at a parameter `V`: the unscoped buffers' contents when the region is entered -/

section Regions

variable (V : (c : Dev nD) → (b : Ref sig .tc) → Buf (Elt F) ((c : Thread nD τ).loc b))

/-! ## Region 0 (the reconstruction term): chunks, running totals, the invariant -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem N0_pos : 0 < cfg0.N := by rw [show cfg0.N = 48 from N_0]; decide

/-- Chunk `n` of the first (second) operand, for every natural `n` (beyond the grid: chunk 0, never consulted). -/
def chunk0 (c : Dev nD) (n : ℕ) : Vec F S256x4096 .f32 :=
  if h : n < cfg0.N then iblk0 V c 0 ⟨n, h⟩ else iblk0 V c 0 ⟨0, N0_pos⟩
def chunk1 (c : Dev nD) (n : ℕ) : Vec F S256x4096 .f32 :=
  if h : n < cfg0.N then iblk0 V c 1 ⟨n, h⟩ else iblk0 V c 1 ⟨0, N0_pos⟩

theorem chunk0_at (c : Dev nD) (t : Fin cfg0.N) : chunk0 V c t.val = iblk0 V c 0 t := by
  unfold chunk0; rw [dif_pos t.isLt]
theorem chunk1_at (c : Dev nD) (t : Fin cfg0.N) : chunk1 V c t.val = iblk0 V c 1 t := by
  unfold chunk1; rw [dif_pos t.isLt]

/-- The per-row totals the scratch column holds after point `n`. -/
def acc (c : Dev nD) (n : ℕ) : Vec F S256x1 .f32 := Cert.KernelIdeal.Spec.accAt (chunk0 V c) (chunk1 V c) n

theorem acc_first (c : Dev nD) (t : Fin cfg0.N) (h : t.val = 0) :
    acc V c t.val = k0_pay2 (iblk0 V c 0 t) (iblk0 V c 1 t) (k0_pay1 (F := F)) := by
  rw [← chunk0_at V c t, ← chunk1_at V c t, h]; rfl
theorem acc_later (c : Dev nD) (t : Fin cfg0.N) (h : t.val ≠ 0) :
    acc V c t.val = k0_pay2 (iblk0 V c 0 t) (iblk0 V c 1 t) (acc V c (t.val - 1)) := by
  rw [← chunk0_at V c t, ← chunk1_at V c t]
  obtain ⟨n, hn⟩ : ∃ n, t.val = n + 1 := ⟨t.val - 1, by omega⟩
  rw [hn]; rfl

/-- The scratch column, as the body is passed it. -/
abbrev scM : Memref sig .tc .vmem S256x1 .f32 := Memref.whole cc0_scratch0

/-- The core's other scoped buffers that are no staging buffer of region 0 (the other region's staging buffers), at
    anything. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f))

/-- The class invariant of region 0 with the scratch column as a memref owned at some contents. -/
theorem PhiA0_eq (c : Dev nD) :
    (Pipeline.ΦA spec0 c : sProp 𝕄)
      = iprop(iprop((∃ d, owns (c : Thread nD τ) scM fullShare d) ∗ restS0 c) ∗ (∃ r, prngReg c r)) := by
  unfold Pipeline.ΦA restS0; rw [scopedRest0_eq]; simp only [scM, owns_whole]; try rfl

/-- The region's invariant before point `n`: before the first point the class's (the scratch at anything); afterwards
    the scratch column at the totals the point before left, the other scoped buffers at anything, the generator
    register at some state. -/
def PhiS (c : Dev nD) : ℕ → sProp 𝕄
  | 0 => Pipeline.ΦA spec0 c
  | n + 1 => iprop(iprop(owns (c : Thread nD τ) scM fullShare (acc V c n) ∗ restS0 c) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop(iprop(owns (c : Thread nD τ) scM fullShare (acc V c n) ∗ restS0 c) ∗ (∃ r, prngReg c r)) := rfl
theorem PhiS_pos (c : Dev nD) (n : ℕ) (hz : n ≠ 0) :
    PhiS V c n = iprop(iprop(owns (c : Thread nD τ) scM fullShare (acc V c (n - 1)) ∗ restS0 c) ∗ (∃ r, prngReg c r)) := by
  cases n with
  | zero => exact absurd rfl hz
  | succ n => rfl

/-- The proof data of region 0 on core `c`: the arrays as the region finds them; after the body each chunk's buffer at
    the chunk, the result buffer (consulted at the last point only: the window is idle before it) at the totals divided
    by the row length; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc V c t.val)
  Φ t := PhiS V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc V c t.val) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem PhiS_castSucc (c : Dev nD) (t : Fin cfg0.N) : (dat0 V c).Φ t.castSucc = PhiS V c t.val := by
  dsimp only [dat0]; simp only [Fin.coe_castSucc]

/-! ## Where the branches are taken, where the result window is idle — decided over the 48 points -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 47 :=
  (by decide +kernel : ∀ t : Fin grid0.N, condLast (grid0.coords t) ↔ t.val = 47)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ condLast (grid0.coords t) → cfg0.idle 2 (grid0.coords t) = true := by decide +kernel
theorem noFlush0_2 : ∀ t : Fin cfg0.N, ¬ condLast (grid0.coords t) → (cfg0.win 2).flush t = false := by decide +kernel
theorem liveAt0_2 : ∀ t : Fin cfg0.N, condLast (grid0.coords t) → cfg0.idle 2 (grid0.coords t) = false := by decide +kernel

/-- Each window's current staging memref at point `t`, spelt as the pipeline passes it. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)

/-! ## The body obligation of region 0 -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the chunks' memrefs hold their blocks; the point is the first, the last, or one between
    (the closed forms of the two branch conditions), and that case's triple applies; the invariant hands the body the
    scratch column at the totals the point before left (at anything at the first point) and takes it back at this
    point's totals; the result window is handed back as found except at the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 48 := lt_of_lt_of_eq t.isLt (show cfg0.N = 48 from N_0)
  by_cases hl : t.val = 47
  · have h0 : ¬ condFirst (grid0.coords t) := fun h => by have := (hcondFirst t).mp h; omega
    have h1 : condLast (grid0.coords t) := (hcondLast t).mpr hl
    rw [show (dat0 V c).leavesExact 2 t = owns (c : Thread nD τ) (ms0_2 t) fullShare ((dat0 V c).after 2 t) from by
      unfold Dat.leavesExact; rw [liveAt0_2 t h1], after0_2]
    rw [PhiS_castSucc V c t, PhiS_pos V c _ (by omega), acc_later V c t (by omega)]
    iintro ⟨⟨⟨HS0, HR⟩, Hg⟩, Ho, ⟨%d0, H0⟩, ⟨%d1, H1⟩, ⟨%d2, H2⟩⟩
    iapply (bce_last c Set.univ (grid0.coords t) (ms0_0 t) (hs0_0 t) (ms0_1 t) (hs0_1 t) (ms0_2 t) (hs0_2 t) scM (Memref.isWhole_whole _) h0 h1 (iblk0 V c 0 t) (iblk0 V c 1 t) (acc V c (t.val - 1)) _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexact H2
  · have h1 : ¬ condLast (grid0.coords t) := fun h => hl ((hcondLast t).mp h)
    rw [Dat.leavesExact_idle (dat0 V c) 2 t (idleAt0_2 t h1) (noFlush0_2 t h1)]
    by_cases hz : t.val = 0
    · have h0 : condFirst (grid0.coords t) := (hcondFirst t).mpr hz
      rw [PhiS_castSucc V c t, PhiS_zero V c _ hz, PhiA0_eq, acc_first V c t hz]
      iintro ⟨⟨⟨HS0, HR⟩, Hg⟩, Ho, ⟨%d0, H0⟩, ⟨%d1, H1⟩, ⟨%d2, H2⟩⟩
      iapply (bce_first c Set.univ (grid0.coords t) (ms0_0 t) (hs0_0 t) (ms0_1 t) (hs0_1 t) (ms0_2 t) (hs0_2 t) scM (Memref.isWhole_whole _) h0 h1 (iblk0 V c 0 t) (iblk0 V c 1 t) ((dat0 V c).before 2 t d2) _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2
    · have h0 : ¬ condFirst (grid0.coords t) := fun h => hz ((hcondFirst t).mp h)
      rw [PhiS_castSucc V c t, PhiS_pos V c _ hz, acc_later V c t hz]
      iintro ⟨⟨⟨HS0, HR⟩, Hg⟩, Ho, ⟨%d0, H0⟩, ⟨%d1, H1⟩, ⟨%d2, H2⟩⟩
      iapply (bce_mid c Set.univ (grid0.coords t) (ms0_0 t) (hs0_0 t) (ms0_1 t) (hs0_1 t) (ms0_2 t) (hs0_2 t) scM (Memref.isWhole_whole _) h0 h1 (iblk0 V c 0 t) (iblk0 V c 1 t) ((dat0 V c).before 2 t d2) (acc V c (t.val - 1)) _)
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands region 0 is its invariant before the first point; -/
theorem hin0 (c : Dev nD) : Pipeline.ΦA spec0 c ⊢ (dat0 V c).Φ 0 := by
  rw [show (dat0 V c).Φ 0 = PhiS V c 0 from rfl, PhiS_zero V c 0 rfl]
/-- after the last point it gives the class invariant back, the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 48 := N_0; omega), PhiA0_eq]
  iintro ⟨⟨HS0, HR⟩, Hg⟩
  isplitl [HS0 HR]
  · isplitl [HS0]; · iexists _; iexact HS0
    iexact HR
  iexact Hg

/-! ## Region 1 (the divergence term): one point, no scratch -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of region 1: the arrays as found; the two operands' buffers left at their blocks, the result buffer
    at the body's payload of them; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (kl_body c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.RunI.lean ====
/-
  The run of the kernel's program, at any float instance: @main is two reshapes, the reconstruction region, the
  divergence region, and seven host operations combining the two results.  Each region is entered from the unscoped
  buffers at a named valuation and left at that valuation with the region's arrays replaced by what its write-backs
  leave; the launch composes the four segments and reads every unscoped buffer off the last valuation.
-/
import proofs.«134086_j33320356283101_1_alg».proof.Proof.Gen.KernelIdeal.Launch
import proofs.«134086_j33320356283101_1_alg».proof.Proof.Gen.KernelIdeal.Skeleton
import proofs.«134086_j33320356283101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import proofs.«134086_j33320356283101_1_alg».proof.Proof.RegionsI
import proofs.«134086_j33320356283101_1_alg».proof.Proof.Gen.KernelIdeal.Regions
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers' contents at each boundary of @main -/

/-- At launch. -/
abbrev Q0 : Dev nD → Valuation τ sig (Elt F) := fun c b => m (c, b)
/-- After the two reshapes (region 0's entry). -/
abbrev Q1 : Dev nD → Valuation τ sig (Elt F) := fun c => StableHlo.after hostOps0 (Q0 m c)
/-- The same read at the TensorCore's references. -/
abbrev R1 : (c : Dev nD) → (b : Ref sig .tc) → Buf (Elt F) ((c : Thread nD τ).loc b) := fun c b => Q1 m c b
/-- At region 0's exit: its arrays at what its write-backs leave, every other buffer as entered. -/
def Q2 (c : Dev nD) : Valuation τ sig (Elt F) :=
  Pipeline.withArrays spec0 c (Q1 m c) fun w => (dat0 (R1 m) c).arrAt w cfg0.N
theorem Q2_arr (c : Dev nD) (w : Fin cfg0.W) :
    Q2 m c (Proc.devRef .tc (Pipeline.arrRef spec0 w)) = (dat0 (R1 m) c).arrAt w cfg0.N := by
  unfold Q2; exact Pipeline.withArrays_arr spec0 launch0.win.arr_inj c _ _ w
theorem Q2_of_ne (c : Dev nD) (b : Ref sig .tc) (hb : ∀ w, Pipeline.arrRef spec0 w ≠ b) :
    Q2 m c (Proc.devRef .tc b) = Q1 m c (Proc.devRef .tc b) := by
  unfold Q2; exact Pipeline.withArrays_of_ne spec0 c _ _ b hb
abbrev R2 : (c : Dev nD) → (b : Ref sig .tc) → Buf (Elt F) ((c : Thread nD τ).loc b) := fun c b => Q2 m c b
theorem hF0 (c : Dev nD) (w : Fin cfg0.W) : (dat0 (R1 m) c).arrAt w cfg0.N = R2 m c (Pipeline.arrRef spec0 w) :=
  (Q2_arr m c w).symm
theorem hrest0 (c : Dev nD) : ∀ b, b ∉ Finset.univ.image (Pipeline.arrRef spec0) → R2 m c b = R1 m c b :=
  fun b hb => Q2_of_ne m c b fun w e => hb (Finset.mem_image.mpr ⟨w, Finset.mem_univ _, e⟩)
/-- At region 1's exit (no host operation stands between the two regions: region 1 is entered from `Q2`). -/
def Q3 (c : Dev nD) : Valuation τ sig (Elt F) :=
  Pipeline.withArrays spec1 c (Q2 m c) fun w => (dat1 (R2 m) c).arrAt w cfg1.N
theorem Q3_arr (c : Dev nD) (w : Fin cfg1.W) :
    Q3 m c (Proc.devRef .tc (Pipeline.arrRef spec1 w)) = (dat1 (R2 m) c).arrAt w cfg1.N := by
  unfold Q3; exact Pipeline.withArrays_arr spec1 launch1.win.arr_inj c _ _ w
theorem Q3_of_ne (c : Dev nD) (b : Ref sig .tc) (hb : ∀ w, Pipeline.arrRef spec1 w ≠ b) :
    Q3 m c (Proc.devRef .tc b) = Q2 m c (Proc.devRef .tc b) := by
  unfold Q3; exact Pipeline.withArrays_of_ne spec1 c _ _ b hb
abbrev R3 : (c : Dev nD) → (b : Ref sig .tc) → Buf (Elt F) ((c : Thread nD τ).loc b) := fun c b => Q3 m c b
theorem hF1 (c : Dev nD) (w : Fin cfg1.W) : (dat1 (R2 m) c).arrAt w cfg1.N = R3 m c (Pipeline.arrRef spec1 w) :=
  (Q3_arr m c w).symm
theorem hrest1 (c : Dev nD) : ∀ b, b ∉ Finset.univ.image (Pipeline.arrRef spec1) → R3 m c b = R2 m c b :=
  fun b hb => Q3_of_ne m c b fun w e => hb (Finset.mem_image.mpr ⟨w, Finset.mem_univ _, e⟩)
/-- After the seven host operations that combine the two results. -/
abbrev Q4 : Dev nD → Valuation τ sig (Elt F) := fun c => StableHlo.after hostOps2 (Q3 m c)

/-! ## The proof data family and what rides beside the buffers -/

/-- Both pipelines' proof data, each at its region's entry contents (a literal match on the pipeline). -/
def pdatsH : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers through every segment: the generator register at some state, nothing owed. -/
abbrev RH (c : Dev nD) : sProp 𝕄 := iprop((∃ r, prngReg c r) ∗ ∃ W, owes (c : Thread nD τ) (0 : CellTallies nD τ sig Unit) W)
/-- A stretch of host operations as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`: every unscoped buffer at `Q4`, the generator register at some state. -/
abbrev TH (c : Dev nD) : sProp 𝕄 := iprop(StableHlo.held (c : Thread nD τ) (Pipeline.ucRefs τ sig) (Q4 m c) ∗ ∃ r, prngReg c r)

/-! ## The regions as segments -/

set_option backward.isDefEq.respectTransparency.types false in
/-- Region 0 over the thread state: entered from every unscoped buffer at `Q1`, left at `Q2`; its arrays split out of
    the unscoped buffers and put back at the exit contents; the generator register into the invariant and out; the
    scratch column's totals, tracked point by point inside, forgotten at the exit; nothing owed. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ LH lvH 0 fun _ _ => rfl
  pre c := iprop(StableHlo.held (c : Thread nD τ) (Pipeline.ucRefs τ sig) (Q1 m c) ∗ RH c)
  post c := iprop(StableHlo.held (c : Thread nD τ) (Pipeline.ucRefs τ sig) (Q2 m c) ∗ RH c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (R1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (R1 m c) (R2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Q2`, left at `Q3`; the class invariant
    throughout; nothing owed. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (R2 m) c).loose
  hwaits := Pipeline.hwaits_of_owed_zero _ _ _ _ LH lvH 1 fun _ _ => rfl
  pre c := iprop(StableHlo.held (c : Thread nD τ) (Pipeline.ucRefs τ sig) (Q2 m c) ∗ RH c)
  post c := iprop(StableHlo.held (c : Thread nD τ) (Pipeline.ucRefs τ sig) (Q3 m c) ∗ RH c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (R2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (R2 m c) (R3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments: the reshapes, the two regions, the combining operations. -/
abbrev segsH : List (Pipeline.Seg (pcfgs (F := F)) adm (pdatsH m) () defs₀ 𝒱H LH lvH) :=
  [ .host (hsegH hostOps0 hostOps0_sub hostOps0_fresh (Q0 m)),
    .region (reg0 m),
    .region (reg1 m),
    .host (hsegH hostOps2 hostOps2_sub hostOps2_fresh (Q3 m)) ]
theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and every unscoped buffer ends at `Q4`: the launch memory pushed through the reshapes, the two regions'
    write-backs and the combining operations. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Q4 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Q0 m c) ∗ RH c)) (Tₙ := TH m)
    (hch := ⟨fun _ => .rfl, fun _ => .rfl, fun _ => .rfl, fun _ => .rfl, fun c => by
      show iprop(StableHlo.held (c : Thread nD τ) (Pipeline.ucRefs τ sig) (Q4 m c) ∗ RH c)
        ⊢ iprop(TH m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Q0 m c)
        from Pipeline.unscopedBufs_held c (Q0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Q4 m c b)
    (hfin := fun c s' => by
      iintro ⟨⟨Hh, -⟩, HSI⟩
      unfold StableHlo.held
      imodintro
      iapply (pointsTo_read_all (Pipeline.ucRefs τ sig) (fun b => (((c : Thread nD τ)).1, b)) (Q4 m c) s')
      isplitl [Hh] <;> iassumption)
    (hQ := fun s h => h)

/-! ## The arguments end as launched -/

theorem Q1_of (c : Dev nD) (r : Ref sig .tc) (h : r ∉ hostOps0_W) : Q1 m c r = Q0 m c r :=
  StableHlo.after_of_writes_sub hostOps0 _ hostOps0_writes h
theorem Q4_of (c : Dev nD) (r : Ref sig .tc) (h : r ∉ hostOps2_W) : Q4 m c r = Q3 m c r :=
  StableHlo.after_of_writes_sub hostOps2 _ hostOps2_writes h

/-- No host operation writes `main_arg0` and no region has it as an array. -/
theorem Q4_arg0 (c : Dev nD) : Q4 m c main_arg0 = m ((c : Thread nD τ).loc main_arg0) :=
  (Q4_of m c main_arg0 (by decide)).trans <| (Q3_of_ne m c main_arg0 (by decide)).trans <|
    (Q2_of_ne m c main_arg0 (by decide)).trans <| (Q1_of m c main_arg0 (by decide)).trans rfl
theorem Q4_arg1 (c : Dev nD) : Q4 m c main_arg1 = m ((c : Thread nD τ).loc main_arg1) :=
  (Q4_of m c main_arg1 (by decide)).trans <| (Q3_of_ne m c main_arg1 (by decide)).trans <|
    (Q2_of_ne m c main_arg1 (by decide)).trans <| (Q1_of m c main_arg1 (by decide)).trans rfl
/-- The mean and the scale enter region 1 as launched, -/
theorem R2_arg2 (c : Dev nD) : R2 m c main_arg2 = m ((c : Thread nD τ).loc main_arg2) :=
  (Q2_of_ne m c main_arg2 (by decide)).trans <| (Q1_of m c main_arg2 (by decide)).trans rfl
theorem R2_arg3 (c : Dev nD) : R2 m c main_arg3 = m ((c : Thread nD τ).loc main_arg3) :=
  (Q2_of_ne m c main_arg3 (by decide)).trans <| (Q1_of m c main_arg3 (by decide)).trans rfl
/-- and, being inputs of region 1, leave it unchanged. -/
theorem Q4_arg2 (c : Dev nD) : Q4 m c main_arg2 = m ((c : Thread nD τ).loc main_arg2) :=
  (Q4_of m c main_arg2 (by decide)).trans <| (Q3_arr m c 0).trans <|
    (((dat1 (R2 m) c).arrAt_in 0 rfl _).trans (A_eq1 (R2 m) c 0)).trans (R2_arg2 m c)
theorem Q4_arg3 (c : Dev nD) : Q4 m c main_arg3 = m ((c : Thread nD τ).loc main_arg3) :=
  (Q4_of m c main_arg3 (by decide)).trans <| (Q3_arr m c 1).trans <|
    (((dat1 (R2 m) c).arrAt_in 1 rfl _).trans (A_eq1 (R2 m) c 1)).trans (R2_arg3 m c)

end Cert.KernelIdeal.Hand

end
-- ==== Proof.BlocksI.lean ====
/-
  How each window's block at a grid point sits in its array: index arithmetic over the printed index maps.

  First call: 48 points; at point t the two input blocks are the [256, 4096] blocks at block index (0, t) of
  [256, 196608] arrays, so element (r, l) of the block is element (r, t · 4096 + l) of the array; the result block is
  the whole [256] array at every point and is written back at the last point only.  Second call: one point, every
  block its whole array, the result written back there.  On each axis a block element's coordinate in the array is
  the block index times the block's size plus the coordinate inside the block.
-/
import proofs.«134086_j33320356283101_1_alg».proof.Proof.Gen.KernelIdeal.Launch
import proofs.«134086_j33320356283101_1_alg».proof.Proof.Gen.KernelIdeal.Points
import Idealize.ShloMosaic.Lib.Pipeline.Value
import Idealize.ShloMosaic.Lib.ValueIdx

noncomputable section

namespace Cert.KernelIdeal.Hand

open Idealize.ShloMosaic Idealize.ShloMosaic.TcCoe Cert.KernelIdeal Cert.KernelIdeal.Gen

variable {F : FTy → Type} [FloatOps F]

/-! ## The first call -/

/-- The printed index maps, decided over the 48 points: the input blocks sit at block index (0, t), the result block
    at block index 0. -/
theorem index_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 1) = 0 :=
  (by decide +kernel : ∀ t : Fin grid0.N, _)

/-- Element y of the first input's block at point t is the array's element (y 0, t · 4096 + y 1). -/
theorem chunk_read0 (X : S256x196608.Idx → Elt F .f32) (t : Fin cfg0.N) (y : S256x4096.Idx) (j : S256x196608.Idx)
    (h0 : (j 0).val = (y 0).val) (h1 : (j 1).val = t.val * 4096 + (y 1).val) :
    ((cfg0.win 0).blk t).view.read (Elt F) X y = X j := by
  obtain ⟨e0, e1, -, -, -⟩ := index_facts0 t
  show X (((cfg0.win 0).blk t).view.emb y) = X j
  refine congrArg X ?_
  funext a; apply Fin.ext
  match a with
  | ⟨0, _⟩ => show win0_0.index t (0 : Fin 2) * 256 + 1 * (y 0).val = (j 0).val; omega
  | ⟨1, _⟩ => show win0_0.index t (1 : Fin 2) * 4096 + 1 * (y 1).val = (j 1).val; omega

/-- Element y of the second input's block at point t is the array's element (y 0, t · 4096 + y 1). -/
theorem chunk_read1 (X : S256x196608.Idx → Elt F .f32) (t : Fin cfg0.N) (y : S256x4096.Idx) (j : S256x196608.Idx)
    (h0 : (j 0).val = (y 0).val) (h1 : (j 1).val = t.val * 4096 + (y 1).val) :
    ((cfg0.win 1).blk t).view.read (Elt F) X y = X j := by
  obtain ⟨-, -, e0, e1, -⟩ := index_facts0 t
  show X (((cfg0.win 1).blk t).view.emb y) = X j
  refine congrArg X ?_
  funext a; apply Fin.ext
  match a with
  | ⟨0, _⟩ => show win0_1.index t (0 : Fin 2) * 256 + 1 * (y 0).val = (j 0).val; omega
  | ⟨1, _⟩ => show win0_1.index t (1 : Fin 2) * 4096 + 1 * (y 1).val = (j 1).val; omega

/-- The result block at any point is the whole result array. -/
theorem res_read0 (G : S256.Idx → Elt F .f32) (t : Fin cfg0.N) :
    ((cfg0.win 2).blk t).view.read (Elt F) G = G := by
  obtain ⟨-, -, -, -, e0⟩ := index_facts0 t
  funext y
  show G (((cfg0.win 2).blk t).view.emb y) = G y
  refine congrArg G ?_
  funext a; apply Fin.ext
  match a with
  | ⟨0, _⟩ => show win0_2.index t (0 : Fin 1) * 256 + 1 * (y 0).val = (y 0).val; omega

/-- An index of the result array is in point t's block iff its coordinate is in the block's range. -/
theorem mem_res_blk0 (t : Fin cfg0.N) (i : S256.Idx) :
    i ∈ ((cfg0.win 2).blk t).view.set
      ↔ ∀ a : Fin 1, win0_2.index t a * S256.size a ≤ (i a).val ∧ (i a).val < win0_2.index t a * S256.size a + S256.size a := by
  show i ∈ ((View.whole main_v2).slice (win0_2.rect t)).set ↔ _
  rw [View.set_slice_whole, Rect.mem_set_unit]
  exact Iff.rfl

/-- The result is written back at the last point only. -/
theorem flush0_only_last (t : Fin cfg0.N) (h : (cfg0.win 2).flush t = true) : t.val = 47 := by
  have h47 : t.val % 48 = 47 := (flush0_2 t).mp h
  have hN : grid0.N = 48 := N_0
  have ht : t.val < grid0.N := t.isLt
  omega

/-- Every index of the result array is in the block some writing-back point writes. -/
theorem res_cover0 (i : S256.Idx) :
    ∃ t : Fin cfg0.N, (cfg0.win 2).flush t = true ∧ i ∈ ((cfg0.win 2).blk t).view.set := by
  have hN : grid0.N = 48 := N_0
  refine ⟨(⟨47, by omega⟩ : Fin grid0.N), (flush0_2 _).mpr rfl, ?_⟩
  rw [mem_res_blk0]
  obtain ⟨-, -, -, -, e0⟩ := index_facts0 (⟨47, by omega⟩ : Fin grid0.N)
  intro a
  match a with
  | ⟨0, _⟩ =>
    have hi : (i 0).val < 256 := (i 0).isLt
    show win0_2.index _ (0 : Fin 1) * 256 ≤ (i 0).val ∧ (i 0).val < win0_2.index _ (0 : Fin 1) * 256 + 256
    omega

/-! ## The second call -/

/-- The printed index maps at the one point: every block at block index zero. -/
theorem index_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0 :=
  (by decide +kernel : ∀ t : Fin grid1.N, _)

/-- The first input's block is its whole array. -/
theorem arg_read1_0 (X : S256x512.Idx → Elt F .f32) (t : Fin cfg1.N) :
    ((cfg1.win 0).blk t).view.read (Elt F) X = X := by
  obtain ⟨e0, e1, -, -, -⟩ := index_facts1 t
  funext y
  show X (((cfg1.win 0).blk t).view.emb y) = X y
  refine congrArg X ?_
  funext a; apply Fin.ext
  match a with
  | ⟨0, _⟩ => show win1_0.index t (0 : Fin 2) * 256 + 1 * (y 0).val = (y 0).val; omega
  | ⟨1, _⟩ => show win1_0.index t (1 : Fin 2) * 512 + 1 * (y 1).val = (y 1).val; omega

/-- The second input's block is its whole array. -/
theorem arg_read1_1 (X : S256x512.Idx → Elt F .f32) (t : Fin cfg1.N) :
    ((cfg1.win 1).blk t).view.read (Elt F) X = X := by
  obtain ⟨-, -, e0, e1, -⟩ := index_facts1 t
  funext y
  show X (((cfg1.win 1).blk t).view.emb y) = X y
  refine congrArg X ?_
  funext a; apply Fin.ext
  match a with
  | ⟨0, _⟩ => show win1_1.index t (0 : Fin 2) * 256 + 1 * (y 0).val = (y 0).val; omega
  | ⟨1, _⟩ => show win1_1.index t (1 : Fin 2) * 512 + 1 * (y 1).val = (y 1).val; omega

/-- The result block is the whole result array. -/
theorem res_read1 (G : S256.Idx → Elt F .f32) (t : Fin cfg1.N) :
    ((cfg1.win 2).blk t).view.read (Elt F) G = G := by
  obtain ⟨-, -, -, -, e0⟩ := index_facts1 t
  funext y
  show G (((cfg1.win 2).blk t).view.emb y) = G y
  refine congrArg G ?_
  funext a; apply Fin.ext
  match a with
  | ⟨0, _⟩ => show win1_2.index t (0 : Fin 1) * 256 + 1 * (y 0).val = (y 0).val; omega

/-- An index of the result array is in point t's block iff its coordinate is in the block's range. -/
theorem mem_res_blk1 (t : Fin cfg1.N) (i : S256.Idx) :
    i ∈ ((cfg1.win 2).blk t).view.set
      ↔ ∀ a : Fin 1, win1_2.index t a * S256.size a ≤ (i a).val ∧ (i a).val < win1_2.index t a * S256.size a + S256.size a := by
  show i ∈ ((View.whole main_v3).slice (win1_2.rect t)).set ↔ _
  rw [View.set_slice_whole, Rect.mem_set_unit]
  exact Iff.rfl

/-- Every index of the result array is in the block the one point writes back. -/
theorem res_cover1 (i : S256.Idx) :
    ∃ t : Fin cfg1.N, (cfg1.win 2).flush t = true ∧ i ∈ ((cfg1.win 2).blk t).view.set := by
  refine ⟨t1_0, flush1_2 t1_0, ?_⟩
  rw [mem_res_blk1]
  obtain ⟨-, -, -, -, e0⟩ := index_facts1 t1_0
  intro a
  match a with
  | ⟨0, _⟩ =>
    have hi : (i 0).val < 256 := (i 0).isLt
    show win1_2.index t1_0 (0 : Fin 1) * 256 ≤ (i 0).val ∧ (i 0).val < win1_2.index t1_0 (0 : Fin 1) * 256 + 256
    omega

end Cert.KernelIdeal.Hand

end
-- ==== Proof.ReadI.lean ====
/-
  The last valuation of the kernel's program read at its results and arguments, at any float instance: the
  arguments as launched; the reconstruction result the last point's write-back (running totals / row length); the
  divergence result the one point's payload of the mean and the scale; the loss the host operations' term of the two;
  and each chunk the region reads as a band of columns of the reshaped argument.
-/
import proofs.«134086_j33320356283101_1_alg».proof.Proof.Gen.KernelIdeal.Launch
import proofs.«134086_j33320356283101_1_alg».proof.Proof.Gen.KernelIdeal.Skeleton
import proofs.«134086_j33320356283101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import proofs.«134086_j33320356283101_1_alg».proof.Proof.RunI
import proofs.«134086_j33320356283101_1_alg».proof.Proof.BlocksI
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The three results -/

/-- The first reshape's result, as region 0 finds it. -/
theorem R1_v0 (c : Dev nD) :
    R1 m c main_v0 = shapeCast S256x196608 (m ((c : Thread nD τ).loc main_arg0)) shapeCasts_S256x3x256x256_S256x196608 := by
  show StableHlo.after hostOps0 (Q0 m c) (Proc.devRef .tc main_v0) = _
  after_results
  rfl
theorem R1_v1 (c : Dev nD) :
    R1 m c main_v1 = shapeCast S256x196608 (m ((c : Thread nD τ).loc main_arg1)) shapeCasts_S256x3x256x256_S256x196608 := by
  show StableHlo.after hostOps0 (Q0 m c) (Proc.devRef .tc main_v1) = _
  after_results
  rfl

/-- The reconstruction result: the one write-back, at the last point, of the totals divided by the row length; the
    block is the whole array. -/
theorem final_rec (c : Dev nD) : (dat0 (R1 m) c).arrAt 2 cfg0.N = k0_pay3 (acc (R1 m) c 47) :=
  (dat0 (R1 m) c).arrAt_eq_of_cover 2 (k0_pay3 (acc (R1 m) c 47))
    (fun t hf => by
      show (cfg0.win 2).cut (grid0.coords t) ((dat0 (R1 m) c).after 2 t) = _
      rw [after0_2, res_read0, flush0_only_last t hf]
      rfl)
    (fun i => res_cover0 i)

theorem Q3_v2 (c : Dev nD) : Q3 m c main_v2 = k0_pay3 (acc (R1 m) c 47) :=
  (Q3_of_ne m c main_v2 (by decide)).trans <| (Q2_arr m c 2).trans (final_rec m c)
theorem Q4_v2 (c : Dev nD) : Q4 m c main_v2 = k0_pay3 (acc (R1 m) c 47) :=
  (Q4_of m c main_v2 (by decide)).trans (Q3_v2 m c)

/-- The divergence result: the one point's write-back of the body's payload of the mean and the scale; every block is
    its whole array. -/
theorem final_kl (c : Dev nD) :
    (dat1 (R2 m) c).arrAt 2 cfg1.N = k1_pay1 (m ((c : Thread nD τ).loc main_arg2)) (m ((c : Thread nD τ).loc main_arg3)) :=
  (dat1 (R2 m) c).arrAt_eq_of_cover 2 _
    (fun t hf => by
      show (cfg1.win 2).cut (grid1.coords t) ((dat1 (R2 m) c).after 2 t) = _
      rw [after1_2, res_read1]
      unfold iblk1
      rw [arg_read1_0, arg_read1_1]
      show k1_pay1 (R2 m c main_arg2) (R2 m c main_arg3) = _
      rw [R2_arg2, R2_arg3])
    (fun i => res_cover1 i)

theorem Q3_v3 (c : Dev nD) :
    Q3 m c main_v3 = k1_pay1 (m ((c : Thread nD τ).loc main_arg2)) (m ((c : Thread nD τ).loc main_arg3)) :=
  (Q3_arr m c 2).trans (final_kl m c)
theorem Q4_v3 (c : Dev nD) :
    Q4 m c main_v3 = k1_pay1 (m ((c : Thread nD τ).loc main_arg2)) (m ((c : Thread nD τ).loc main_arg3)) :=
  (Q4_of m c main_v3 (by decide)).trans (Q3_v3 m c)

/-- The combined loss: the seven host operations' term of the two results. -/
theorem Q4_v8 (c : Dev nD) :
    Q4 m c main_v8 = addf (mulf (broadcastInDim S256 ![] bcast_S_S256 (constant S_ .f32 0x43FA0000#32)) (Q3 m c main_v2))
      (mulf (broadcastInDim S256 ![] bcast_S_S256 (constant S_ .f32 0x3F800000#32)) (Q3 m c main_v3)) := by
  show StableHlo.after hostOps2 (Q3 m c) (Proc.devRef .tc main_v8) = _
  after_results

/-- Chunk `t` of the first operand is columns `4096 t … 4096 t + 4095` of the first argument reshaped to rows. -/
theorem chunk0_eq (c : Dev nD) (t : ℕ) (ht : t < 48) (y : S256x4096.Idx) (j : S256x196608.Idx)
    (h0 : (j 0).val = (y 0).val) (h1 : (j 1).val = t * 4096 + (y 1).val) :
    chunk0 (R1 m) c t y = shapeCast S256x196608 (m ((c : Thread nD τ).loc main_arg0)) shapeCasts_S256x3x256x256_S256x196608 j := by
  have hN : t < cfg0.N := lt_of_lt_of_eq ht (show cfg0.N = 48 from N_0).symm
  unfold chunk0; rw [dif_pos hN]; unfold iblk0
  rw [chunk_read0 _ ⟨t, hN⟩ y j h0 h1]
  exact congrFun (R1_v0 m c) j
theorem chunk1_eq (c : Dev nD) (t : ℕ) (ht : t < 48) (y : S256x4096.Idx) (j : S256x196608.Idx)
    (h0 : (j 0).val = (y 0).val) (h1 : (j 1).val = t * 4096 + (y 1).val) :
    chunk1 (R1 m) c t y = shapeCast S256x196608 (m ((c : Thread nD τ).loc main_arg1)) shapeCasts_S256x3x256x256_S256x196608 j := by
  have hN : t < cfg0.N := lt_of_lt_of_eq ht (show cfg0.N = 48 from N_0).symm
  unfold chunk1; rw [dif_pos hN]; unfold iblk0
  rw [chunk_read1 _ ⟨t, hN⟩ y j h0 h1]
  exact congrFun (R1_v1 m c) j

end Cert.KernelIdeal.Hand

end
-- ==== Proof.ValKl.lean ====
/-
  The Kullback–Leibler term.  The kernel adds the jitter to the scale, squares it, adds the squared mean, sums the
  512 lanes of a row, does the same with the logarithm of the jittered scale, and combines the two row sums as
  one half of (sum − 512 − 2 · log-sum).  The reference applies the same operations with the same constants; its
  two row sums start from an initial value that is zero, its constants are broadcast rank-zero arrays, and its
  logarithm is the host's, which at the extended reals is the same function.
-/
import proofs.«134086_j33320356283101_1_alg».proof.Proof.Gen.KernelIdeal.Skeleton
import proofs.«134086_j33320356283101_1_alg».proof.Proof.Gen.ReferenceIdeal.Read
import Idealize.ShloMosaic.Lib.KernelVsHost

noncomputable section

namespace Cert.KernelIdeal.ValKl

open Idealize.ShloMosaic Cert.KernelIdeal Cert.KernelIdeal.Gen

variable [Cert.KernelIdeal.Facts] [Cert.ReferenceIdeal.Facts]

/-- The host's logarithm of an array of extended reals is the vector unit's. -/
theorem hostLog_eq_log {s : Shape} (x : FVec Ideal s .f32) : Host.log x = log x := rfl

/-- A row sum from the zero initial value is the lane sum with the neutral accumulator. -/
theorem hostRowSum_eq (x : FVec Ideal S256x512 .f32) :
    Host.reduceAdd x (constant (F := Ideal) Cert.ReferenceIdeal.S_ .f32 0x00000000#32)
        Cert.ReferenceIdeal.Facts₀.reducesTo_S256x512_S256_d1 Cert.ReferenceIdeal.Facts₀.h_S_
      = multiReduction .add [1] S256 x 0x00000000#32 Facts₀.reduces_S256x512_S256 (.inl rfl) rfl :=
  (multiReduction_add_eq_hostReduceAdd x 0x00000000#32 Facts₀.reduces_S256x512_S256 (.inl rfl) rfl
    (constant (F := Ideal) Cert.ReferenceIdeal.S_ .f32 0x00000000#32)
    Cert.ReferenceIdeal.Facts₀.reducesTo_S256x512_S256_d1 Cert.ReferenceIdeal.Facts₀.h_S_ Ideal.ofBits_zero_f32).symm

/-- The Kullback–Leibler payload of the mean and the scale is the reference's term. -/
theorem kl_value (mu s : FVec Ideal S256x512 .f32) :
    k1_pay1 (F := Ideal) mu s
      = mulf (broadcastInDim Cert.ReferenceIdeal.S256 ![] Cert.ReferenceIdeal.Facts₀.bcast_S_S256 (constant Cert.ReferenceIdeal.S_ .f32 0x3F000000#32)) (subf (subf (Host.reduceAdd (addf (mulf (addf s (broadcastInDim Cert.ReferenceIdeal.S256x512 ![] Cert.ReferenceIdeal.Facts₀.bcast_S_S256x512 (constant Cert.ReferenceIdeal.S_ .f32 0x358637BD#32))) (addf s (broadcastInDim Cert.ReferenceIdeal.S256x512 ![] Cert.ReferenceIdeal.Facts₀.bcast_S_S256x512 (constant Cert.ReferenceIdeal.S_ .f32 0x358637BD#32)))) (mulf mu mu)) (constant Cert.ReferenceIdeal.S_ .f32 0x00000000#32) Cert.ReferenceIdeal.Facts₀.reducesTo_S256x512_S256_d1 Cert.ReferenceIdeal.Facts₀.h_S_) (broadcastInDim Cert.ReferenceIdeal.S256 ![] Cert.ReferenceIdeal.Facts₀.bcast_S_S256 (constant Cert.ReferenceIdeal.S_ .f32 0x44000000#32))) (mulf (broadcastInDim Cert.ReferenceIdeal.S256 ![] Cert.ReferenceIdeal.Facts₀.bcast_S_S256 (constant Cert.ReferenceIdeal.S_ .f32 0x40000000#32)) (Host.reduceAdd (Host.log (addf s (broadcastInDim Cert.ReferenceIdeal.S256x512 ![] Cert.ReferenceIdeal.Facts₀.bcast_S_S256x512 (constant Cert.ReferenceIdeal.S_ .f32 0x358637BD#32)))) (constant Cert.ReferenceIdeal.S_ .f32 0x00000000#32) Cert.ReferenceIdeal.Facts₀.reducesTo_S256x512_S256_d1 Cert.ReferenceIdeal.Facts₀.h_S_))) := by
  rw [hostRowSum_eq, hostRowSum_eq, hostLog_eq_log]
  simp only [broadcastInDim_constant]
  rfl

end Cert.KernelIdeal.ValKl

end
-- ==== Proof.ValRecTerm.lean ====
/-
  The reconstruction term's two ingredients, as functions of extended reals.

  One element's contribution is the binary cross-entropy of a prediction p against a target g with both logarithms
  clamped below: −(g · max(log p, c) + (1 − g) · max(log1p(−p), c)), with c and 1 kept as the words that encode them.
  A row's total is the sum of the contributions over the 196608 columns of the flattened arrays.  The kernel spells
  a negation as a subtraction from the zero word; on every extended real, the infinities included, 0 − x = −x.
-/
import Idealize.ShloMosaic.Lib.ValueIdx
import Idealize.ShloMosaic.PureOps.Ideal.Laws

noncomputable section

open scoped BigOperators

namespace Cert.KernelIdeal.ValRec

open Idealize.ShloMosaic Idealize.ShloMosaic.ValueIdx

/-- One element's clamped binary cross-entropy. -/
def bce (p g : EReal) : EReal :=
  -(g * max (Ideal.log p) (Ideal.ofBits .f32 0xC2C80000#32)
      + (Ideal.ofBits .f32 0x3F800000#32 - g) * max (Ideal.log1p (-p)) (Ideal.ofBits .f32 0xC2C80000#32))

/-- The same contribution with each negation written as a subtraction from the zero word. -/
theorem zero_sub_form (p g : EReal) :
    Ideal.ofBits .f32 0x00000000#32
        - (g * max (Ideal.log p) (Ideal.ofBits .f32 0xC2C80000#32)
            + (Ideal.ofBits .f32 0x3F800000#32 - g)
              * max (Ideal.log1p (Ideal.ofBits .f32 0x00000000#32 - p)) (Ideal.ofBits .f32 0xC2C80000#32))
      = bce p g := by
  rw [Ideal.ofBits_zero_f32, zero_sub, zero_sub]
  rfl

/-- A row's total over the 196608 columns of the two flattened arrays. -/
def rowTotal (X0 X1 : (⟨2, ![256, 196608]⟩ : Shape).Idx → EReal) (r : Fin 256) : EReal :=
  ∑ k : Fin 196608, bce (X0 (ix2 r k)) (X1 (ix2 r k))

end Cert.KernelIdeal.ValRec

end
-- ==== Proof.LibBlockSums.lean ====
/-
  Two facts about finite sums over initial segments of the naturals, in any commutative additive
  monoid (no subtraction, no order, no finiteness of the values is involved):

  * `sum_blocks`: summing `a` consecutive blocks of `b` consecutive naturals, block `p` being
    `b·p, …, b·p + b − 1`, is summing the first `a·b` naturals;
  * `sum_pad`: terms that vanish from `n` on may be dropped from a sum over the first `N ≥ n`
    naturals.

  Together they turn a sum accumulated block by block over a zero-padded range into the sum over
  the unpadded range.
-/
import Mathlib.Algebra.BigOperators.Fin
import Mathlib.Algebra.BigOperators.Intervals
import Mathlib.Logic.Equiv.Fin.Basic

open scoped BigOperators

namespace Cert.Lib.BlockSums

/-- A sum over `a` blocks of `b` consecutive naturals is the sum over all `a * b` of them. -/
theorem sum_blocks {M : Type*} [AddCommMonoid M] (a b : ℕ) (f : ℕ → M) :
    ∑ p ∈ Finset.range a, ∑ l : Fin b, f (b * p + l.val) = ∑ k : Fin (a * b), f k.val := by
  rw [← Fin.sum_univ_eq_sum_range (fun p => ∑ l : Fin b, f (b * p + l.val)) a,
    ← Equiv.sum_comp finProdFinEquiv (fun k : Fin (a * b) => f k.val), Fintype.sum_prod_type]
  refine Finset.sum_congr rfl fun p _ => Finset.sum_congr rfl fun l _ => ?_
  show f (b * p.val + l.val) = f (l.val + b * p.val)
  rw [Nat.add_comm]

/-- Terms that vanish from `n` on may be dropped from a sum over the first `N ≥ n` naturals. -/
theorem sum_pad {M : Type*} [AddCommMonoid M] (n N : ℕ) (hnN : n ≤ N) (f : ℕ → M)
    (hz : ∀ k, n ≤ k → k < N → f k = 0) : ∑ k : Fin N, f k.val = ∑ k : Fin n, f k.val := by
  rw [Fin.sum_univ_eq_sum_range f N, Fin.sum_univ_eq_sum_range f n]
  refine (Finset.sum_subset (Finset.range_mono hnN) fun k hk hk' => hz k ?_ ?_).symm
  · simpa using hk'
  · simpa using hk

end Cert.Lib.BlockSums
-- ==== Proof.ValRecKer.lean ====
/-
  The reconstruction kernel's payloads read at a row.

  Chunk by chunk the kernel adds, to the row's stored total, the sum over the chunk's 4096 lanes of the elements'
  contributions; the stored total starts at zero.  So after chunk n the row's total is the sum over the first n + 1
  chunks, and when the chunks are consecutive blocks of 4096 columns of a [256, 196608] array the total after the
  last of the 48 chunks is the sum over all 196608 columns.  The last payload divides the total by a constant.
-/
import proofs.«134086_j33320356283101_1_alg».proof.Proof.Spec
import proofs.«134086_j33320356283101_1_alg».proof.Proof.ValRecTerm
import proofs.«134086_j33320356283101_1_alg».proof.Proof.LibBlockSums
import Idealize.ShloMosaic.Lib.Pipeline.Value
import Idealize.ShloMosaic.Lib.ValueIdx
import Idealize.ShloMosaic.PureOps.Ideal.Laws

noncomputable section

open scoped BigOperators

namespace Cert.KernelIdeal.ValRec

open Idealize.ShloMosaic Idealize.ShloMosaic.ValueIdx Cert.KernelIdeal Cert.KernelIdeal.Gen Cert.KernelIdeal.Spec

/-- A [256] vector viewed as a [256, 1] column reads its entry r at (r, 0). -/
theorem colCast_apply {α : Type} (v : (⟨1, ![256]⟩ : Shape).Idx → α)
    (h : (⟨1, ![256]⟩ : Shape).ShapeCasts ⟨2, ![256, 1]⟩) (r : Fin 256) :
    shapeCast ⟨2, ![256, 1]⟩ v h (ix2 r (0 : Fin 1)) = v (ix1 r) :=
  shapeCast_apply v h _ _ (by
    rw [Shape.rowMajor_val_one, Shape.rowMajor_val_two]
    show r.val = r.val * 1 + 0
    omega)

/-- A [256, 1] column viewed as a [256] vector reads (r, 0) at r. -/
theorem rowCast_apply {α : Type} (v : (⟨2, ![256, 1]⟩ : Shape).Idx → α)
    (h : (⟨2, ![256, 1]⟩ : Shape).ShapeCasts ⟨1, ![256]⟩) (r : Fin 256) :
    shapeCast ⟨1, ![256]⟩ v h (ix1 r) = v (ix2 r (0 : Fin 1)) :=
  shapeCast_apply v h _ _ (by
    rw [Shape.rowMajor_val_one, Shape.rowMajor_val_two]
    show r.val * 1 + 0 = r.val
    omega)

/-- The lane sum of a [256, 4096] array at row r is the sum over the 4096 lanes. -/
theorem laneSum_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ l : Fin 4096, src (ix2 r l) := by
  refine (Ideal.multiReduction_add_single src 0x00000000#32 h hφ hacc (ix1 r)).trans ?_
  refine Finset.sum_congr rfl fun l _ => congrArg src (funext fun a => Fin.ext ?_)
  match a with
  | ⟨0, _⟩ => rfl
  | ⟨1, _⟩ => rfl

variable [Cert.KernelIdeal.Facts]

/-- The total stored before the first chunk is zero. -/
theorem pay1_apply (r : Fin 256) : k0_pay1 (F := Ideal) (ix2 r (0 : Fin 1)) = 0 := by
  unfold k0_pay1
  simp only [shapeCast_self]
  exact Ideal.ofBits_zero_f32

/-- One chunk's step at row r: the total so far plus the chunk's 4096 contributions. -/
theorem pay2_apply (v3 v5 : Vec Ideal S256x4096 .f32) (acc : Vec Ideal S256x1 .f32) (r : Fin 256) :
    k0_pay2 (F := Ideal) v3 v5 acc (ix2 r (0 : Fin 1))
      = acc (ix2 r (0 : Fin 1)) + ∑ l : Fin 4096, bce (v3 (ix2 r l)) (v5 (ix2 r l)) := by
  unfold k0_pay2
  simp only [shapeCast_self, addf_apply]
  refine congrArg (acc (ix2 r (0 : Fin 1)) + ·) ?_
  refine (colCast_apply _ _ r).trans ?_
  refine (laneSum_apply _ _ _ _ r).trans ?_
  refine Finset.sum_congr rfl fun l _ => ?_
  exact zero_sub_form (v3 (ix2 r l)) (v5 (ix2 r l))

/-- The last step at row r: the total divided by the constant. -/
theorem pay3_apply (v32 : Vec Ideal S256x1 .f32) (r : Fin 256) :
    k0_pay3 (F := Ideal) v32 (ix1 r) = Ideal.div (v32 (ix2 r (0 : Fin 1))) (Ideal.ofBits .f32 0x48400000#32) := by
  unfold k0_pay3
  exact congrArg (Ideal.div · (Ideal.ofBits .f32 0x48400000#32)) (rowCast_apply v32 _ r)

/-- The running total at row r after chunk n is the sum over the first n + 1 chunks. -/
theorem accAt_apply (b0 b1 : ℕ → Vec Ideal S256x4096 .f32) (r : Fin 256) (n : ℕ) :
    accAt b0 b1 n (ix2 r (0 : Fin 1))
      = ∑ t ∈ Finset.range (n + 1), ∑ l : Fin 4096, bce (b0 t (ix2 r l)) (b1 t (ix2 r l)) := by
  induction n with
  | zero => rw [accAt_zero, pay2_apply, pay1_apply, zero_add, Finset.sum_range_one]
  | succ n ih => rw [accAt_succ, pay2_apply, ih, Finset.sum_range_succ _ (n + 1)]

/-- When chunk t of each family is the block of columns t·4096 … t·4096 + 4095 of a [256, 196608] array, the kernel's
    result at row r is that row's total over all columns, divided by the constant. -/
theorem kernel_row (X0 X1 : (⟨2, ![256, 196608]⟩ : Shape).Idx → EReal) (b0 b1 : ℕ → Vec Ideal S256x4096 .f32)
    (h0 : ∀ t, t < 48 → ∀ (y : S256x4096.Idx) (j : S256x196608.Idx), (j 0).val = (y 0).val →
      (j 1).val = t * 4096 + (y 1).val → b0 t y = X0 j)
    (h1 : ∀ t, t < 48 → ∀ (y : S256x4096.Idx) (j : S256x196608.Idx), (j 0).val = (y 0).val →
      (j 1).val = t * 4096 + (y 1).val → b1 t y = X1 j)
    (r : Fin 256) :
    k0_pay3 (F := Ideal) (accAt b0 b1 47) (ix1 r)
      = Ideal.div (rowTotal X0 X1 r) (Ideal.ofBits .f32 0x48400000#32) := by
  rw [pay3_apply, accAt_apply]
  refine congrArg (Ideal.div · (Ideal.ofBits .f32 0x48400000#32)) ?_
  -- the contribution of column k, as a function of the natural number k
  let f : ℕ → EReal := fun k =>
    if hk : k < 196608 then bce (X0 (ix2 r (⟨k, hk⟩ : Fin 196608))) (X1 (ix2 r (⟨k, hk⟩ : Fin 196608))) else 0
  have hchunk : ∀ t ∈ Finset.range 48, ∀ l : Fin 4096,
      bce (b0 t (ix2 r l)) (b1 t (ix2 r l)) = f (4096 * t + l.val) := by
    intro t ht l
    have ht' : t < 48 := Finset.mem_range.mp ht
    have hl : l.val < 4096 := l.isLt
    have hk : 4096 * t + l.val < 196608 := by omega
    show _ = dite _ _ _
    rw [dif_pos hk]
    rw [h0 t ht' (ix2 r l) (ix2 r (⟨4096 * t + l.val, hk⟩ : Fin 196608)) rfl (by show 4096 * t + l.val = t * 4096 + l.val; omega),
      h1 t ht' (ix2 r l) (ix2 r (⟨4096 * t + l.val, hk⟩ : Fin 196608)) rfl (by show 4096 * t + l.val = t * 4096 + l.val; omega)]
  have hsum : ∑ t ∈ Finset.range 48, ∑ l : Fin 4096, bce (b0 t (ix2 r l)) (b1 t (ix2 r l))
      = ∑ t ∈ Finset.range 48, ∑ l : Fin 4096, f (4096 * t + l.val) :=
    Finset.sum_congr rfl fun t ht => Finset.sum_congr rfl fun l _ => hchunk t ht l
  have hflat : ∑ k : Fin (48 * 4096), f k.val = ∑ k : Fin 196608, f k.val := rfl
  rw [hsum, Cert.Lib.BlockSums.sum_blocks 48 4096 f, hflat]
  unfold rowTotal
  refine Finset.sum_congr rfl fun k _ => ?_
  show dite _ _ _ = _
  rw [dif_pos k.isLt]

end Cert.KernelIdeal.ValRec

end
-- ==== Proof.ValRecRef.lean ====
/-
  The reference's reconstruction term read at a row.

  The reference sums the elements' contributions of a [256, 3, 256, 256] array over its last three axes, from an
  initial value that is zero, and divides each row's sum by a constant.  The elements with first coordinate r are, in
  row-major order, the 196608 entries of row r of the array flattened to [256, 196608]; so the row's sum is the sum
  over the columns of the flattened arrays.
-/
import proofs.«134086_j33320356283101_1_alg».proof.Proof.Gen.ReferenceIdeal.Read
import proofs.«134086_j33320356283101_1_alg».proof.Proof.ValRecTerm
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

open scoped BigOperators

namespace Cert.KernelIdeal.ValRec

open Idealize.ShloMosaic Idealize.ShloMosaic.ValueIdx

/-- Dropping the last three coordinates of a rank-4 index gives row r exactly when its first coordinate is r. -/
theorem drop_eq_iff (hred : (⟨4, ![256, 3, 256, 256]⟩ : Shape).ReducesTo [1, 2, 3] ⟨1, ![256]⟩)
    (i : (⟨4, ![256, 3, 256, 256]⟩ : Shape).Idx) (r : Fin 256) :
    hred.drop i = ix1 r ↔ (i 0).val = r.val := by
  have hd : (hred.drop i 0 : ℕ) = (i 0).val := Shape.ReducesTo.drop_apply_val_of_eq hred i 0 0
  constructor
  · intro h
    rw [← hd, h]
  · intro h
    funext c
    match c with
    | ⟨0, _⟩ => exact Fin.ext (hd.trans h)

/-- The rank-4 index matched with (a, b) of the flattened shape has first coordinate a. -/
theorem reshape_row (hc : (⟨4, ![256, 3, 256, 256]⟩ : Shape).ShapeCasts ⟨2, ![256, 196608]⟩) (a : Fin 256)
    (b : Fin 196608) : ((Shape.reshapeEquiv hc (ix2 a b)) 0).val = a.val := by
  have e := Shape.rowMajor_reshapeEquiv hc (ix2 a b)
  have e4 : ((⟨4, ![256, 3, 256, 256]⟩ : Shape).rowMajor (Shape.reshapeEquiv hc (ix2 a b))).val
      = ((((Shape.reshapeEquiv hc (ix2 a b)) 0).val * 3 + ((Shape.reshapeEquiv hc (ix2 a b)) 1).val) * 256
          + ((Shape.reshapeEquiv hc (ix2 a b)) 2).val) * 256 + ((Shape.reshapeEquiv hc (ix2 a b)) 3).val :=
    Shape.rowMajor_val_four _
  have e2 : ((⟨2, ![256, 196608]⟩ : Shape).rowMajor (ix2 a b)).val = a.val * 196608 + b.val :=
    Shape.rowMajor_val_two _
  have h1 : ((Shape.reshapeEquiv hc (ix2 a b)) 1).val < 3 := ((Shape.reshapeEquiv hc (ix2 a b)) 1).isLt
  have h2 : ((Shape.reshapeEquiv hc (ix2 a b)) 2).val < 256 := ((Shape.reshapeEquiv hc (ix2 a b)) 2).isLt
  have h3 : ((Shape.reshapeEquiv hc (ix2 a b)) 3).val < 256 := ((Shape.reshapeEquiv hc (ix2 a b)) 3).isLt
  have hb : b.val < 196608 := b.isLt
  omega

/-- The sum over the rank-4 indices of row r, from an initial value, is the initial value plus the sum over the
    196608 columns of row r of the flattened array. -/
theorem hostSum_row (Y : (⟨4, ![256, 3, 256, 256]⟩ : Shape).Idx → EReal) (init : EReal)
    (hred : (⟨4, ![256, 3, 256, 256]⟩ : Shape).ReducesTo [1, 2, 3] ⟨1, ![256]⟩)
    (hc : (⟨4, ![256, 3, 256, 256]⟩ : Shape).ShapeCasts ⟨2, ![256, 196608]⟩) (r : Fin 256) :
    Ideal.hostReduceAdd hred Y init (ix1 r)
      = init + ∑ k : Fin 196608, Y (Shape.reshapeEquiv hc (ix2 r k)) := by
  unfold Ideal.hostReduceAdd
  refine congrArg (init + ·) ?_
  rw [Finset.sum_filter, ← Equiv.sum_comp (Shape.reshapeEquiv hc), sum_idx2]
  have key : ∀ (a : Fin 256) (b : Fin 196608),
      (hred.drop (Shape.reshapeEquiv hc (ix2 a b)) = ix1 r) ↔ a = r := fun a b => by
    rw [drop_eq_iff, reshape_row]
    exact ⟨fun h => Fin.ext h, fun h => congrArg Fin.val h⟩
  simp only [key]
  rw [Finset.sum_eq_single r]
  · simp
  · intro a _ ha
    simp [ha]
  · simp

variable [Cert.ReferenceIdeal.Facts]

/-- The reference's reconstruction term at row r: the row's total over the flattened arrays, divided by the constant. -/
theorem ref_row (p g : FVec Ideal ⟨4, ![256, 3, 256, 256]⟩ .f32)
    (hc : (⟨4, ![256, 3, 256, 256]⟩ : Shape).ShapeCasts ⟨2, ![256, 196608]⟩) (r : Fin 256) :
    Host.divf (Host.reduceAdd (Host.negf (addf (mulf g (maximumf (Host.log p) (broadcastInDim Cert.ReferenceIdeal.S256x3x256x256 ![] Cert.ReferenceIdeal.Facts₀.bcast_S_S256x3x256x256 (constant (F := Ideal) Cert.ReferenceIdeal.S_ .f32 0xC2C80000#32)))) (mulf (subf (broadcastInDim Cert.ReferenceIdeal.S256x3x256x256 ![] Cert.ReferenceIdeal.Facts₀.bcast_S_S256x3x256x256 (constant (F := Ideal) Cert.ReferenceIdeal.S_ .f32 0x3F800000#32)) g) (maximumf (Host.log1p (Host.negf p)) (broadcastInDim Cert.ReferenceIdeal.S256x3x256x256 ![] Cert.ReferenceIdeal.Facts₀.bcast_S_S256x3x256x256 (constant (F := Ideal) Cert.ReferenceIdeal.S_ .f32 0xC2C80000#32)))))) (constant (F := Ideal) Cert.ReferenceIdeal.S_ .f32 0x00000000#32) Cert.ReferenceIdeal.Facts₀.reducesTo_S256x3x256x256_S256_d1_2_3 Cert.ReferenceIdeal.Facts₀.h_S_) (broadcastInDim Cert.ReferenceIdeal.S256 ![] Cert.ReferenceIdeal.Facts₀.bcast_S_S256 (constant (F := Ideal) Cert.ReferenceIdeal.S_ .f32 0x48400000#32)) (ix1 r)
      = Ideal.div (rowTotal (shapeCast ⟨2, ![256, 196608]⟩ p hc) (shapeCast ⟨2, ![256, 196608]⟩ g hc) r)
          (Ideal.ofBits .f32 0x48400000#32) := by
  -- the elements' contributions as one array
  generalize hY : Host.negf (addf (mulf g (maximumf (Host.log p) (broadcastInDim Cert.ReferenceIdeal.S256x3x256x256 ![] Cert.ReferenceIdeal.Facts₀.bcast_S_S256x3x256x256 (constant (F := Ideal) Cert.ReferenceIdeal.S_ .f32 0xC2C80000#32)))) (mulf (subf (broadcastInDim Cert.ReferenceIdeal.S256x3x256x256 ![] Cert.ReferenceIdeal.Facts₀.bcast_S_S256x3x256x256 (constant (F := Ideal) Cert.ReferenceIdeal.S_ .f32 0x3F800000#32)) g) (maximumf (Host.log1p (Host.negf p)) (broadcastInDim Cert.ReferenceIdeal.S256x3x256x256 ![] Cert.ReferenceIdeal.Facts₀.bcast_S_S256x3x256x256 (constant (F := Ideal) Cert.ReferenceIdeal.S_ .f32 0xC2C80000#32))))) = Y
  have hYi : ∀ i, Y i = bce (p i) (g i) := fun i => by rw [← hY]; rfl
  rw [hostDivf_apply, hostReduceAdd_apply, hostSum_row Y _ _ hc r, broadcastInDim_constant]
  refine congr (congrArg Ideal.div ?_) rfl
  show Ideal.ofBits .f32 0x00000000#32 + _ = _
  rw [Ideal.ofBits_zero_f32, zero_add]
  unfold rowTotal
  exact Finset.sum_congr rfl fun k _ => hYi _

end Cert.KernelIdeal.ValRec

end
-- ==== Proof.Bridge.lean ====
/-
  The two value equations of this certificate: each output the kernel stores, as a pure function of what it loaded,
  is the reference's result term over the same arrays.
-/
import proofs.«134086_j33320356283101_1_alg».proof.Proof.Spec
import proofs.«134086_j33320356283101_1_alg».proof.Proof.Gen.ReferenceIdeal.Read
import proofs.«134086_j33320356283101_1_alg».proof.Proof.ValKl
import proofs.«134086_j33320356283101_1_alg».proof.Proof.ValRecKer
import proofs.«134086_j33320356283101_1_alg».proof.Proof.ValRecRef
import Idealize.ShloMosaic.Lib.ValueIdx
import Idealize.ShloMosaic.PureOps.Ideal.Laws

noncomputable section
namespace Cert.KernelIdeal.Bridge
open Idealize.ShloMosaic Cert.KernelIdeal Cert.KernelIdeal.Gen Cert.KernelIdeal.Spec

variable [Cert.KernelIdeal.Facts] [Cert.ReferenceIdeal.Facts]

/-- The reconstruction term: the kernel's last payload of the running total after the 48th chunk is the reference's
    mean, over the last three axes, of the elements' clamped cross-entropies. -/
theorem rec_eq (p g : FVec Ideal S256x3x256x256 .f32) (b0 b1 : ℕ → Vec Ideal S256x4096 .f32)
    (h0 : ∀ t, t < 48 → ∀ (y : S256x4096.Idx) (j : S256x196608.Idx), (j 0).val = (y 0).val → (j 1).val = t * 4096 + (y 1).val →
      b0 t y = shapeCast S256x196608 p Facts₀.shapeCasts_S256x3x256x256_S256x196608 j)
    (h1 : ∀ t, t < 48 → ∀ (y : S256x4096.Idx) (j : S256x196608.Idx), (j 0).val = (y 0).val → (j 1).val = t * 4096 + (y 1).val →
      b1 t y = shapeCast S256x196608 g Facts₀.shapeCasts_S256x3x256x256_S256x196608 j) :
    k0_pay3 (F := Ideal) (accAt b0 b1 47)
      = Host.divf (Host.reduceAdd (Host.negf (addf (mulf g (maximumf (Host.log p) (broadcastInDim Cert.ReferenceIdeal.S256x3x256x256 ![] Cert.ReferenceIdeal.Facts₀.bcast_S_S256x3x256x256 (constant Cert.ReferenceIdeal.S_ .f32 0xC2C80000#32)))) (mulf (subf (broadcastInDim Cert.ReferenceIdeal.S256x3x256x256 ![] Cert.ReferenceIdeal.Facts₀.bcast_S_S256x3x256x256 (constant Cert.ReferenceIdeal.S_ .f32 0x3F800000#32)) g) (maximumf (Host.log1p (Host.negf p)) (broadcastInDim Cert.ReferenceIdeal.S256x3x256x256 ![] Cert.ReferenceIdeal.Facts₀.bcast_S_S256x3x256x256 (constant Cert.ReferenceIdeal.S_ .f32 0xC2C80000#32)))))) (constant Cert.ReferenceIdeal.S_ .f32 0x00000000#32) Cert.ReferenceIdeal.Facts₀.reducesTo_S256x3x256x256_S256_d1_2_3 Cert.ReferenceIdeal.Facts₀.h_S_) (broadcastInDim Cert.ReferenceIdeal.S256 ![] Cert.ReferenceIdeal.Facts₀.bcast_S_S256 (constant Cert.ReferenceIdeal.S_ .f32 0x48400000#32)) := by
  funext i
  rw [ValueIdx.eq_ix1 i]
  exact (ValRec.kernel_row _ _ b0 b1 h0 h1 (i 0)).trans
    (ValRec.ref_row p g Facts₀.shapeCasts_S256x3x256x256_S256x196608 (i 0)).symm

/-- The Kullback–Leibler term: the kernel's payload of the mean (its first load) and the scale (its second) is the
    reference's term. -/
theorem kl_eq (mu s : FVec Ideal S256x512 .f32) :
    k1_pay1 (F := Ideal) mu s
      = mulf (broadcastInDim Cert.ReferenceIdeal.S256 ![] Cert.ReferenceIdeal.Facts₀.bcast_S_S256 (constant Cert.ReferenceIdeal.S_ .f32 0x3F000000#32)) (subf (subf (Host.reduceAdd (addf (mulf (addf s (broadcastInDim Cert.ReferenceIdeal.S256x512 ![] Cert.ReferenceIdeal.Facts₀.bcast_S_S256x512 (constant Cert.ReferenceIdeal.S_ .f32 0x358637BD#32))) (addf s (broadcastInDim Cert.ReferenceIdeal.S256x512 ![] Cert.ReferenceIdeal.Facts₀.bcast_S_S256x512 (constant Cert.ReferenceIdeal.S_ .f32 0x358637BD#32)))) (mulf mu mu)) (constant Cert.ReferenceIdeal.S_ .f32 0x00000000#32) Cert.ReferenceIdeal.Facts₀.reducesTo_S256x512_S256_d1 Cert.ReferenceIdeal.Facts₀.h_S_) (broadcastInDim Cert.ReferenceIdeal.S256 ![] Cert.ReferenceIdeal.Facts₀.bcast_S_S256 (constant Cert.ReferenceIdeal.S_ .f32 0x44000000#32))) (mulf (broadcastInDim Cert.ReferenceIdeal.S256 ![] Cert.ReferenceIdeal.Facts₀.bcast_S_S256 (constant Cert.ReferenceIdeal.S_ .f32 0x40000000#32)) (Host.reduceAdd (Host.log (addf s (broadcastInDim Cert.ReferenceIdeal.S256x512 ![] Cert.ReferenceIdeal.Facts₀.bcast_S_S256x512 (constant Cert.ReferenceIdeal.S_ .f32 0x358637BD#32)))) (constant Cert.ReferenceIdeal.S_ .f32 0x00000000#32) Cert.ReferenceIdeal.Facts₀.reducesTo_S256x512_S256_d1 Cert.ReferenceIdeal.Facts₀.h_S_))) :=
  ValKl.kl_value mu s

end Cert.KernelIdeal.Bridge
end
-- ==== Proof.lean ====
/-
  The certificate of a variational-autoencoder loss kernel against its jnp reference: equal results on the extended
  reals, and the three programs' frames.

  Both programs compute, per row b of 256,
    rec(b)  = ( Σ over the 196608 entries of the row of  −( g·max(log p, −100) + (1 − g)·max(log1p(−p), −100) ) ) / 196608,
    kl(b)   = ½·( Σ_d ((s_d + ε)² + μ_d²) − 512 − 2·Σ_d log(s_d + ε) ),      loss(b) = 500·rec(b) + 1·kl(b),
  with the same float words for −100, 1, ε, 512, 2, ½, 500, 196608 on both sides.  The kernel forms rec in a pipelined
  region that walks the row in 48 chunks of 4096 columns, adding each chunk's lane sum to a per-row total kept in a
  scratch column (zeroed at the first chunk, divided by the row length and written out at the last), where the
  reference reduces the [3,256,256] trailing axes at once; it writes −x as 0 − x where the reference negates.  On the
  extended reals addition is a commutative monoid, so the 48 chunk sums regroup into the one sum with no finiteness
  needed, and 0 − x = −x for every x: the precondition is never opened.  kl is one point of a second region and the
  same operations as the reference's; the loss is the same seven host operations on both sides.

  The kernel's run is composed segment by segment — the reshapes, the two regions, the combining operations —: each
  region's body triple names what every buffer holds afterwards over the body's own payload terms, the first region's
  invariant carries the scratch column's running totals point by point, and the launch reads every result off the last
  valuation.  The reference's run is its generated one.
-/
import proofs.«134086_j33320356283101_1_alg».proof.Defs
import proofs.«134086_j33320356283101_1_alg».proof.Proof.Gen.Kernel
import proofs.«134086_j33320356283101_1_alg».proof.Proof.Gen.KernelIdeal
import proofs.«134086_j33320356283101_1_alg».proof.Proof.Gen.ReferenceIdeal
import proofs.«134086_j33320356283101_1_alg».proof.Proof.Gen.ReferenceIdeal.Run
import proofs.«134086_j33320356283101_1_alg».proof.Proof.Gen.ReferenceIdeal.Read
import proofs.«134086_j33320356283101_1_alg».proof.Proof.Gen.Pre_finite_inputs
import proofs.«134086_j33320356283101_1_alg».proof.Proof.RunK
import proofs.«134086_j33320356283101_1_alg».proof.Proof.ReadI
import proofs.«134086_j33320356283101_1_alg».proof.Proof.Bridge

noncomputable section

namespace Cert.Proof

open Idealize.ShloMosaic Idealize.ShloMosaic.TcCoe Idealize.SL.Sem

/-- The word-level kernel runs and leaves its arguments as launched: its run at the bit-exact instance, every
    unscoped buffer read off the last valuation, the arguments there as launched. -/
theorem frame_k : Cert.frame_Kernel := fun m ρ _ =>
  (θ_run Cert.Kernel.defs _ _).mono (fun _ h c =>
      ⟨(h c _ (Cert.Kernel.Hand.mem_uc Cert.Kernel.main_arg0 (by decide))).trans (Cert.Kernel.Hand.Q4_arg0 m c),
       (h c _ (Cert.Kernel.Hand.mem_uc Cert.Kernel.main_arg1 (by decide))).trans (Cert.Kernel.Hand.Q4_arg1 m c),
       (h c _ (Cert.Kernel.Hand.mem_uc Cert.Kernel.main_arg2 (by decide))).trans (Cert.Kernel.Hand.Q4_arg2 m c),
       (h c _ (Cert.Kernel.Hand.mem_uc Cert.Kernel.main_arg3 (by decide))).trans (Cert.Kernel.Hand.Q4_arg3 m c)⟩)
    (Cert.Kernel.Hand.run_all (F := Bits) m ρ)

/-- The same run at the ideal instance. -/
theorem frame_ki : Cert.frame_KernelIdeal := fun m ρ _ =>
  (θ_run Cert.KernelIdeal.defs _ _).mono (fun _ h c =>
      ⟨(h c _ (Cert.KernelIdeal.Hand.mem_uc Cert.KernelIdeal.main_arg0 (by decide))).trans (Cert.KernelIdeal.Hand.Q4_arg0 m c),
       (h c _ (Cert.KernelIdeal.Hand.mem_uc Cert.KernelIdeal.main_arg1 (by decide))).trans (Cert.KernelIdeal.Hand.Q4_arg1 m c),
       (h c _ (Cert.KernelIdeal.Hand.mem_uc Cert.KernelIdeal.main_arg2 (by decide))).trans (Cert.KernelIdeal.Hand.Q4_arg2 m c),
       (h c _ (Cert.KernelIdeal.Hand.mem_uc Cert.KernelIdeal.main_arg3 (by decide))).trans (Cert.KernelIdeal.Hand.Q4_arg3 m c)⟩)
    (Cert.KernelIdeal.Hand.run_all (F := Ideal) m ρ)

/-- The reference is host operations only: its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing in this kernel: the idealized program is the kernel's own text. -/
theorem preserves : Cert.preserves_Kernel_KernelIdeal := trivial

open Cert.KernelIdeal Cert.KernelIdeal.Gen Cert.KernelIdeal.Hand in
/-- The idealized kernel's run with its three results named: the reconstruction term the last chunk's totals over the
    row length, the divergence term the second region's payload of the mean and the scale, the loss the host
    operations' term of the two. -/
theorem kernel_values (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2) = k0_pay3 (acc (R1 m) c 47)
      ∧ r.2.mem ((c.tc : Thread nD τ).loc main_v3) = k1_pay1 (m ((c.tc : Thread nD τ).loc main_arg2)) (m ((c.tc : Thread nD τ).loc main_arg3))
      ∧ r.2.mem ((c.tc : Thread nD τ).loc main_v8) = addf (mulf (broadcastInDim S256 ![] Facts₀.bcast_S_S256 (constant S_ .f32 0x43FA0000#32)) (k0_pay3 (acc (R1 m) c 47)))
          (mulf (broadcastInDim S256 ![] Facts₀.bcast_S_S256 (constant S_ .f32 0x3F800000#32)) (k1_pay1 (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun _ h c =>
      ⟨(h c _ (mem_uc main_v2 (by decide))).trans (Q4_v2 m c),
       (h c _ (mem_uc main_v3 (by decide))).trans (Q4_v3 m c),
       (h c _ (mem_uc main_v8 (by decide))).trans ((Q4_v8 m c).trans (by rw [Q3_v2, Q3_v3])),
       (h c _ (mem_uc main_arg0 (by decide))).trans (Q4_arg0 m c),
       (h c _ (mem_uc main_arg1 (by decide))).trans (Q4_arg1 m c),
       (h c _ (mem_uc main_arg2 (by decide))).trans (Q4_arg2 m c),
       (h c _ (mem_uc main_arg3 (by decide))).trans (Q4_arg3 m c)⟩)
    (run_all (F := Ideal) m ρ)

open Cert.KernelIdeal.Hand in
/-- At the ideal instance, from memories agreeing on the arguments, the two programs end with equal results: the
    reference's reconstruction term is the kernel's 48 chunk sums regrouped, its divergence term the kernel's payload
    operation for operation, and the loss the same term of the two. -/
theorem algebraic : Cert.algebraic_KernelIdeal_ReferenceIdeal := by
  intro m ρ m' ρ' _ hagree
  refine ⟨_, _, _, kernel_values m ρ, ?_⟩
  refine (θ_run Cert.ReferenceIdeal.defs _ _).mono (fun _ h c => ?_) (Cert.ReferenceIdeal.Value.run (F := Ideal) m' ρ')
  have erec := Cert.KernelIdeal.Bridge.rec_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (chunk0 (R1 m) c) (chunk1 (R1 m) c) (chunk0_eq m c) (chunk1_eq m c)
  have ekl := Cert.KernelIdeal.Bridge.kl_eq (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
  obtain ⟨h15, h30, h35, hargs⟩ := h c
  obtain ⟨a0, a1, a2, a3⟩ := hagree c
  refine ⟨h15.trans ?_, h30.trans ?_, h35.trans ?_, hargs⟩
  · rw [a0, a1]; exact erec.symm
  · rw [a2, a3]; exact ekl.symm
  · rw [a0, a1, a2, a3, ← erec, ← ekl]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
